-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S16384x16384 : Shape := ⟨2, ![16384, 16384]⟩
abbrev S2x524288 : Shape := ⟨2, ![2, 524288]⟩
abbrev S16384x64 : Shape := ⟨2, ![16384, 64]⟩
abbrev S64 : Shape := ⟨1, ![64]⟩
abbrev S16384x1 : Shape := ⟨2, ![16384, 1]⟩
abbrev S1 : Shape := ⟨1, ![1]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S64 : S_.BroadcastsInDim S64 (![] : Fin 0 → Fin S64.rank)
  reducesTo_S64_S_d0 : S64.ReducesTo [0] S_
  bcast_S_S16384x1 : S_.BroadcastsInDim S16384x1 (![] : Fin 0 → Fin S16384x1.rank)
  reducesTo_S16384x1_S_d0_1 : S16384x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S16384x1 1) : IVec S_ 1 :=
  let main_c_5 : IVec S_ 1 := constantI S_ 1 1#1
  let main_v17 : IVec S_ 1 := (fun x v => Host.reduce IntOp.andi x v reducesTo_S16384x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : IVec S4096x2 32) (main_arg1 : FVec F S16384x16384 .f32) (main_arg2 : IVec S2x524288 32) (main_arg3 : FVec F S16384x64 .f32) (main_arg4 : FVec F S64 .f32) (main_arg5 : FVec F S16384x1 .f32) (main_arg6 : FVec F S1 .f32) : IVec S_ 1 :=
  let main_v0 : FVec F S16384x16384 .f32 := Host.absf main_arg1
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg3
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S16384x1 .f32 := Host.absf main_arg5
  let main_cst_4 : FVec F S_ .f32 := constant S_ .f32 0x7F800000#32
  let main_v15 : FVec F S16384x1 .f32 := broadcastInDim S16384x1 ![] bcast_S_S16384x1 main_cst_4
  let main_v16 : IVec S16384x1 1 := cmpf .olt main_v14 main_v15
  fn_part1 (F := F) main_arg6 main_v13 main_v16
-- ==== Kernel.lean ====
abbrev S4096x2 : Shape := ⟨2, ![4096, 2]⟩
abbrev S16384x16384 : Shape := ⟨2, ![16384, 16384]⟩
abbrev S2x524288 : Shape := ⟨2, ![2, 524288]⟩
abbrev S16384x64 : Shape := ⟨2, ![16384, 64]⟩
abbrev S64 : Shape := ⟨1, ![64]⟩
abbrev S16384x1 : Shape := ⟨2, ![16384, 1]⟩
abbrev S1 : Shape := ⟨1, ![1]⟩
abbrev S512x4096 : Shape := ⟨2, ![512, 4096]⟩
abbrev S4096x64 : Shape := ⟨2, ![4096, 64]⟩
abbrev S512x64 : Shape := ⟨2, ![512, 64]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S540672x64 : Shape := ⟨2, ![540672, 64]⟩
abbrev S1x64 : Shape := ⟨2, ![1, 64]⟩
abbrev S4096x2x1 : Shape := ⟨3, ![4096, 2, 1]⟩
abbrev S4096x2x64 : Shape := ⟨3, ![4096, 2, 64]⟩
abbrev S4096 : Shape := ⟨1, ![4096]⟩
abbrev S4096x1 : Shape := ⟨2, ![4096, 1]⟩
abbrev S1x1 : Shape := ⟨2, ![1, 1]⟩

abbrev nBuf : Space → Nat
  | .hbm => 105
  | .vmem => 7
  | .smem => 0
  | _ => 0

abbrev bufTy : (tb : Table) → Fin (tcTables nBuf tb) → BufTy
  | .hbm, ⟨0, _⟩ => ⟨S4096x2, .i32⟩
  | .hbm, ⟨1, _⟩ => ⟨S16384x16384, .f32⟩
  | .hbm, ⟨2, _⟩ => ⟨S2x524288, .i32⟩
  | .hbm, ⟨3, _⟩ => ⟨S16384x64, .f32⟩
  | .hbm, ⟨4, _⟩ => ⟨S64, .f32⟩
  | .hbm, ⟨5, _⟩ => ⟨S16384x1, .f32⟩
  | .hbm, ⟨6, _⟩ => ⟨S1, .f32⟩
  | .hbm, ⟨7, _⟩ => ⟨S16384x64, .f32⟩
  | .hbm, ⟨8, _⟩ => ⟨S16384, .i32⟩
  | .hbm, ⟨9, _⟩ => ⟨S1x524288, .i32⟩
  | .hbm, ⟨10, _⟩ => ⟨S524288, .i32⟩
  | .hbm, ⟨11, _⟩ => ⟨S540672, .i32⟩
  | .hbm, ⟨12, _⟩ => ⟨S1x524288, .i32⟩
  | .hbm, ⟨13, _⟩ => ⟨S524288, .i32⟩
  | .hbm, ⟨14, _⟩ => ⟨S540672, .i32⟩
  | .hbm, ⟨15, _⟩ => ⟨S_, .f32⟩
  | .hbm, ⟨16, _⟩ => ⟨S540672, .f32⟩
  | .hbm, ⟨17, _⟩ => ⟨S_, .f32⟩
  | .hbm, ⟨18, _⟩ => ⟨S16384, .f32⟩
  | .hbm, ⟨19, _⟩ => ⟨S540672x1, .i32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .i1⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .i32⟩
  | .hbm, ⟨30, _⟩ => ⟨S540672, .i32⟩
  | .hbm, ⟨31, _⟩ => ⟨S540672, .i1⟩
  | .hbm, ⟨32, _⟩ => ⟨S_, .i32⟩
  | .hbm, ⟨33, _⟩ => ⟨S540672, .i32⟩
  | .hbm, ⟨34, _⟩ => ⟨S540672, .i32⟩
  | .hbm, ⟨35, _⟩ => ⟨S540672, .i32⟩
  | .hbm, ⟨36, _⟩ => ⟨S540672x1, .i32⟩
  | .hbm, ⟨37, _⟩ => ⟨S540672, .f32⟩
  | .hbm, ⟨38, _⟩ => ⟨S_, .i32⟩
  | .hbm, ⟨39, _⟩ => ⟨S540672, .i32⟩
  | .hbm, ⟨40, _⟩ => ⟨S540672, .i1⟩
  | .hbm, ⟨41, _⟩ => ⟨S_, .i32⟩
  | .hbm, ⟨42, _⟩ => ⟨S540672, .i32⟩
  | .hbm, ⟨43, _⟩ => ⟨S540672, .i32⟩
  | .hbm, ⟨44, _⟩ => ⟨S540672, .i32⟩
  | .hbm, ⟨45, _⟩ => ⟨S540672x1, .i32⟩
  | .hbm, ⟨46, _⟩ => ⟨S540672, .f32⟩
  | .hbm, ⟨47, _⟩ => ⟨S540672, .f32⟩
  | .hbm, ⟨48, _⟩ => ⟨S_, .i32⟩
  | .hbm, ⟨49, _⟩ => ⟨S540672, .i32⟩
  | .hbm, ⟨50, _⟩ => ⟨S540672, .i1⟩
  | .hbm, ⟨51, _⟩ => ⟨S_, .i32⟩
  | .hbm, ⟨52, _⟩ => ⟨S540672, .i32⟩
  | .hbm, ⟨53, _⟩ => ⟨S540672, .i32⟩
  | .hbm, ⟨54, _⟩ => ⟨S540672, .i32⟩
  | .hbm, ⟨55, _⟩ => ⟨S540672x1, .i32⟩
  | .hbm, ⟨56, _⟩ => ⟨S540672x64, .f32⟩
  | .hbm, ⟨57, _⟩ => ⟨S540672x1, .f32⟩
  | .hbm, ⟨58, _⟩ => ⟨S540672x64, .f32⟩
  | .hbm, ⟨59, _⟩ => ⟨S540672x64, .f32⟩
  | .hbm, ⟨60, _⟩ => ⟨S_, .f32⟩
  | .hbm, ⟨61, _⟩ => ⟨S16384x64, .f32⟩
  | .hbm, ⟨62, _⟩ => ⟨S540672x1, .i32⟩
  | .hbm, ⟨63, _⟩ => ⟨S16384x64, .f32⟩
  | .hbm, ⟨64, _⟩ => ⟨S1x64, .f32⟩
  | .hbm, ⟨65, _⟩ => ⟨S16384x64, .f32⟩
  | .hbm, ⟨66, _⟩ => ⟨S16384x64, .f32⟩
  | .hbm, ⟨67, _⟩ => ⟨S_, .i32⟩
  | .hbm, ⟨68, _⟩ => ⟨S4096x2, .i32⟩
  | .hbm, ⟨69, _⟩ => ⟨S4096x2, .i1⟩
  | .hbm, ⟨70, _⟩ => ⟨S_, .i32⟩
  | .hbm, ⟨71, _⟩ => ⟨S4096x2, .i32⟩
  | .hbm, ⟨72, _⟩ => ⟨S4096x2, .i32⟩
  | .hbm, ⟨73, _⟩ => ⟨S4096x2, .i32⟩
  | .hbm, ⟨74, _⟩ => ⟨S4096x2x1, .i32⟩
  | .hbm, ⟨75, _⟩ => ⟨S4096x2x64, .f32⟩
  | .hbm, ⟨76, _⟩ => ⟨S_, .f32⟩
  | .hbm, ⟨77, _⟩ => ⟨S4096x64, .f32⟩
  | .hbm, ⟨78, _⟩ => ⟨S4096x64, .f32⟩
  | .hbm, ⟨79, _⟩ => ⟨S4096x2x64, .f32⟩
  | .hbm, ⟨80, _⟩ => ⟨S_, .f32⟩
  | .hbm, ⟨81, _⟩ => ⟨S4096x64, .f32⟩
  | .hbm, ⟨82, _⟩ => ⟨S4096x64, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .i32⟩
  | .hbm, ⟨90, _⟩ => ⟨S4096x2, .i32⟩
  | .hbm, ⟨91, _⟩ => ⟨S4096x2, .i1⟩
  | .hbm, ⟨92, _⟩ => ⟨S_, .i32⟩
  | .hbm, ⟨93, _⟩ => ⟨S4096x2, .i32⟩
  | .hbm, ⟨94, _⟩ => ⟨S4096x2, .i32⟩
  | .hbm, ⟨95, _⟩ => ⟨S4096x2, .i32⟩
  | .hbm, ⟨96, _⟩ => ⟨S4096x2x1, .i32⟩
  | .hbm, ⟨97, _⟩ => ⟨S4096x2x1, .f32⟩
  | .hbm, ⟨98, _⟩ => ⟨S_, .f32⟩
  | .hbm, ⟨99, _⟩ => ⟨S4096x1, .f32⟩
  | .hbm, ⟨100, _⟩ => ⟨S1x1, .f32⟩
  | .hbm, ⟨101, _⟩ => ⟨S4096x1, .f32⟩
  | .hbm, ⟨102, _⟩ => ⟨S4096x1, .f32⟩
  | .hbm, ⟨103, _⟩ => ⟨S4096x1, .f32⟩
  | .hbm, ⟨104, _⟩ => ⟨S4096, .f32⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S4096x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | _, _ => ⟨S4096x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_v64 : Ref sig .tc := ⟨.hbm, 91, rfl⟩
abbrev main_c_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S4096x2 : S_.BroadcastsInDim S4096x2 (![] : Fin 0 → Fin S4096x2.rank)
  bcast_S4096x2_S4096x2x1_0_1 : S4096x2.BroadcastsInDim S4096x2x1 (![0, 1] : Fin 2 → Fin S4096x2x1.rank)
  reducesTo_S4096x2x64_S4096x64_d1 : S4096x2x64.ReducesTo [1] S4096x64
  h_S_ : 0 < S_.numel
  reducesTo_S4096x64_S4096_d1 : S4096x64.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S4096x2x1_S4096x1_d1 : S4096x2x1.ReducesTo [1] S4096x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  dot_S512x4096_S4096x64_S512x64_1_0_0_1_n_n_wf : DotDims.WF S512x4096 S4096x64 S512x64 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  gather_S16384x64_S4096x2x1_S4096x2x64_2_0_n_n_0_2_164_wf : GatherDims.WF S16384x64 S4096x2x1 S4096x2x64 [2] [0] [] [0] [] 2 ![1, 64]
  gather_S16384x1_S4096x2x1_S4096x2x1_2_0_n_n_0_2_11_wf : GatherDims.WF S16384x1 S4096x2x1 S4096x2x1 [2] [0] [] [0] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x16384.size a
  hwx0_0 : ∀ i : grid0.Coords, EltTy.bits .f32 = 32 ∨ (Rect.block (s := S16384x16384) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S16384x64.size a
  hwx0_1 : ∀ i : grid0.Coords, EltTy.bits .f32 = 32 ∨ (Rect.block (s := S16384x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S16384x64.size a
  hwx0_2 : ∀ i : grid0.Coords, EltTy.bits .f32 = 32 ∨ (Rect.block (s := S16384x64) S512x64.size (cc0_transform_2 i) (hinb0_2 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def gather_S16384x64_S4096x2x1_S4096x2x64_2_0_n_n_0_2_164 : GatherDims S16384x64 S4096x2x1 S4096x2x64 where
  offsetDims := [2]
  collapsedSliceDims := [0]
  operandBatchingDims := []
  startIndicesBatchingDims := []
  startIndexMap := [0]
  indexVectorDim := 2
  sliceSizes := ![1, 64]
  wf := gather_S16384x64_S4096x2x1_S4096x2x64_2_0_n_n_0_2_164_wf
def gather_S16384x1_S4096x2x1_S4096x2x1_2_0_n_n_0_2_11 : GatherDims S16384x1 S4096x2x1 S4096x2x1 where
  offsetDims := [2]
  collapsedSliceDims := [0]
  operandBatchingDims := []
  startIndicesBatchingDims := []
  startIndexMap := [0]
  indexVectorDim := 2
  sliceSizes := ![1, 1]
  wf := gather_S16384x1_S4096x2x1_S4096x2x1_2_0_n_n_0_2_11_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x2 : Shape := ⟨2, ![4096, 2]⟩
abbrev S16384x16384 : Shape := ⟨2, ![16384, 16384]⟩
abbrev S2x524288 : Shape := ⟨2, ![2, 524288]⟩
abbrev S16384x64 : Shape := ⟨2, ![16384, 64]⟩
abbrev S64 : Shape := ⟨1, ![64]⟩
abbrev S16384x1 : Shape := ⟨2, ![16384, 1]⟩
abbrev S1 : Shape := ⟨1, ![1]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S540672x64 : Shape := ⟨2, ![540672, 64]⟩
abbrev S1x64 : Shape := ⟨2, ![1, 64]⟩
abbrev S4096x2x1 : Shape := ⟨3, ![4096, 2, 1]⟩
abbrev S4096x2x64 : Shape := ⟨3, ![4096, 2, 64]⟩
abbrev S4096x64 : Shape := ⟨2, ![4096, 64]⟩
abbrev S4096 : Shape := ⟨1, ![4096]⟩
abbrev S4096x1 : Shape := ⟨2, ![4096, 1]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S4096x2, .i32⟩
  | .hbm, ⟨1, _⟩ => ⟨S16384x16384, .f32⟩
  | .hbm, ⟨2, _⟩ => ⟨S2x524288, .i32⟩
  | .hbm, ⟨3, _⟩ => ⟨S16384x64, .f32⟩
  | .hbm, ⟨4, _⟩ => ⟨S64, .f32⟩
  | .hbm, ⟨5, _⟩ => ⟨S16384x1, .f32⟩
  | .hbm, ⟨6, _⟩ => ⟨S1, .f32⟩
  | .hbm, ⟨7, _⟩ => ⟨S16384x64, .f32⟩
  | .hbm, ⟨8, _⟩ => ⟨S16384, .i32⟩
  | .hbm, ⟨9, _⟩ => ⟨S1x524288, .i32⟩
  | .hbm, ⟨10, _⟩ => ⟨S524288, .i32⟩
  | .hbm, ⟨11, _⟩ => ⟨S540672, .i32⟩
  | .hbm, ⟨12, _⟩ => ⟨S1x524288, .i32⟩
  | .hbm, ⟨13, _⟩ => ⟨S524288, .i32⟩
  | .hbm, ⟨14, _⟩ => ⟨S540672, .i32⟩
  | .hbm, ⟨15, _⟩ => ⟨S_, .f32⟩
  | .hbm, ⟨16, _⟩ => ⟨S540672, .f32⟩
  | .hbm, ⟨17, _⟩ => ⟨S_, .f32⟩
  | .hbm, ⟨18, _⟩ => ⟨S16384, .f32⟩
  | .hbm, ⟨19, _⟩ => ⟨S540672x1, .i32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .i1⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .i32⟩
  | .hbm, ⟨30, _⟩ => ⟨S540672, .i32⟩
  | .hbm, ⟨31, _⟩ => ⟨S540672, .i1⟩
  | .hbm, ⟨32, _⟩ => ⟨S_, .i32⟩
  | .hbm, ⟨33, _⟩ => ⟨S540672, .i32⟩
  | .hbm, ⟨34, _⟩ => ⟨S540672, .i32⟩
  | .hbm, ⟨35, _⟩ => ⟨S540672, .i32⟩
  | .hbm, ⟨36, _⟩ => ⟨S540672x1, .i32⟩
  | .hbm, ⟨37, _⟩ => ⟨S540672, .f32⟩
  | .hbm, ⟨38, _⟩ => ⟨S_, .i32⟩
  | .hbm, ⟨39, _⟩ => ⟨S540672, .i32⟩
  | .hbm, ⟨40, _⟩ => ⟨S540672, .i1⟩
  | .hbm, ⟨41, _⟩ => ⟨S_, .i32⟩
  | .hbm, ⟨42, _⟩ => ⟨S540672, .i32⟩
  | .hbm, ⟨43, _⟩ => ⟨S540672, .i32⟩
  | .hbm, ⟨44, _⟩ => ⟨S540672, .i32⟩
  | .hbm, ⟨45, _⟩ => ⟨S540672x1, .i32⟩
  | .hbm, ⟨46, _⟩ => ⟨S540672, .f32⟩
  | .hbm, ⟨47, _⟩ => ⟨S540672, .f32⟩
  | .hbm, ⟨48, _⟩ => ⟨S_, .i32⟩
  | .hbm, ⟨49, _⟩ => ⟨S540672, .i32⟩
  | .hbm, ⟨50, _⟩ => ⟨S540672, .i1⟩
  | .hbm, ⟨51, _⟩ => ⟨S_, .i32⟩
  | .hbm, ⟨52, _⟩ => ⟨S540672, .i32⟩
  | .hbm, ⟨53, _⟩ => ⟨S540672, .i32⟩
  | .hbm, ⟨54, _⟩ => ⟨S540672, .i32⟩
  | .hbm, ⟨55, _⟩ => ⟨S540672x1, .i32⟩
  | .hbm, ⟨56, _⟩ => ⟨S540672x64, .f32⟩
  | .hbm, ⟨57, _⟩ => ⟨S540672x1, .f32⟩
  | .hbm, ⟨58, _⟩ => ⟨S540672x64, .f32⟩
  | .hbm, ⟨59, _⟩ => ⟨S540672x64, .f32⟩
  | .hbm, ⟨60, _⟩ => ⟨S_, .f32⟩
  | .hbm, ⟨61, _⟩ => ⟨S16384x64, .f32⟩
  | .hbm, ⟨62, _⟩ => ⟨S540672x1, .i32⟩
  | .hbm, ⟨63, _⟩ => ⟨S16384x64, .f32⟩
  | .hbm, ⟨64, _⟩ => ⟨S1x64, .f32⟩
  | .hbm, ⟨65, _⟩ => ⟨S16384x64, .f32⟩
  | .hbm, ⟨66, _⟩ => ⟨S16384x64, .f32⟩
  | .hbm, ⟨67, _⟩ => ⟨S_, .i32⟩
  | .hbm, ⟨68, _⟩ => ⟨S4096x2, .i32⟩
  | .hbm, ⟨69, _⟩ => ⟨S4096x2, .i1⟩
  | .hbm, ⟨70, _⟩ => ⟨S_, .i32⟩
  | .hbm, ⟨71, _⟩ => ⟨S4096x2, .i32⟩
  | .hbm, ⟨72, _⟩ => ⟨S4096x2, .i32⟩
  | .hbm, ⟨73, _⟩ => ⟨S4096x2, .i32⟩
  | .hbm, ⟨74, _⟩ => ⟨S4096x2x1, .i32⟩
  | .hbm, ⟨75, _⟩ => ⟨S4096x2x64, .f32⟩
  | .hbm, ⟨76, _⟩ => ⟨S_, .f32⟩
  | .hbm, ⟨77, _⟩ => ⟨S4096x64, .f32⟩
  | .hbm, ⟨78, _⟩ => ⟨S4096x64, .f32⟩
  | .hbm, ⟨79, _⟩ => ⟨S4096x2x64, .f32⟩
  | .hbm, ⟨80, _⟩ => ⟨S_, .f32⟩
  | .hbm, ⟨81, _⟩ => ⟨S4096x64, .f32⟩
  | .hbm, ⟨82, _⟩ => ⟨S4096x64, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .i32⟩
  | .hbm, ⟨90, _⟩ => ⟨S4096x2, .i32⟩
  | .hbm, ⟨91, _⟩ => ⟨S4096x2, .i1⟩
  | .hbm, ⟨92, _⟩ => ⟨S_, .i32⟩
  | .hbm, ⟨93, _⟩ => ⟨S4096x2, .i32⟩
  | .hbm, ⟨94, _⟩ => ⟨S4096x2, .i32⟩
  | .hbm, ⟨95, _⟩ => ⟨S4096x2, .i32⟩
  | .hbm, ⟨96, _⟩ => ⟨S4096x2x1, .i32⟩
  | .hbm, ⟨97, _⟩ => ⟨S4096x2x1, .f32⟩
  | .hbm, ⟨98, _⟩ => ⟨S_, .f32⟩
  | .hbm, ⟨99, _⟩ => ⟨S4096x1, .f32⟩
  | .hbm, ⟨100, _⟩ => ⟨S1x1, .f32⟩
  | .hbm, ⟨101, _⟩ => ⟨S4096x1, .f32⟩
  | .hbm, ⟨102, _⟩ => ⟨S4096x1, .f32⟩
  | .hbm, ⟨103, _⟩ => ⟨S4096x1, .f32⟩
  | .hbm, ⟨104, _⟩ => ⟨S4096, .f32⟩
  | _, _ => ⟨S4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_v64 : Ref sig .tc := ⟨.hbm, 91, rfl⟩
abbrev main_c_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S4096x2 : S_.BroadcastsInDim S4096x2 (![] : Fin 0 → Fin S4096x2.rank)
  bcast_S4096x2_S4096x2x1_0_1 : S4096x2.BroadcastsInDim S4096x2x1 (![0, 1] : Fin 2 → Fin S4096x2x1.rank)
  reducesTo_S4096x2x64_S4096x64_d1 : S4096x2x64.ReducesTo [1] S4096x64
  h_S_ : 0 < S_.numel
  reducesTo_S4096x64_S4096_d1 : S4096x64.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S4096x2x1_S4096x1_d1 : S4096x2x1.ReducesTo [1] S4096x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  dot_S16384x16384_S16384x64_S16384x64_1_0_0_1_n_n_wf : DotDims.WF S16384x16384 S16384x64 S16384x64 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  gather_S16384x64_S4096x2x1_S4096x2x64_2_0_n_n_0_2_164_wf : GatherDims.WF S16384x64 S4096x2x1 S4096x2x64 [2] [0] [] [0] [] 2 ![1, 64]
  gather_S16384x1_S4096x2x1_S4096x2x1_2_0_n_n_0_2_11_wf : GatherDims.WF S16384x1 S4096x2x1 S4096x2x1 [2] [0] [] [0] [] 2 ![1, 1]

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def gather_S16384x64_S4096x2x1_S4096x2x64_2_0_n_n_0_2_164 : GatherDims S16384x64 S4096x2x1 S4096x2x64 where
  offsetDims := [2]
  collapsedSliceDims := [0]
  operandBatchingDims := []
  startIndicesBatchingDims := []
  startIndexMap := [0]
  indexVectorDim := 2
  sliceSizes := ![1, 64]
  wf := gather_S16384x64_S4096x2x1_S4096x2x64_2_0_n_n_0_2_164_wf
def gather_S16384x1_S4096x2x1_S4096x2x1_2_0_n_n_0_2_11 : GatherDims S16384x1 S4096x2x1 S4096x2x1 where
  offsetDims := [2]
  collapsedSliceDims := [0]
  operandBatchingDims := []
  startIndicesBatchingDims := []
  startIndexMap := [0]
  indexVectorDim := 2
  sliceSizes := ![1, 1]
  wf := gather_S16384x1_S4096x2x1_S4096x2x1_2_0_n_n_0_2_11_wf

class Facts : Prop extends Facts₀ where

variable [Facts]
-- ==== Proof.KernelCases.lean ====
/-
  The matrix-product kernel runs on a grid of 32 · 4 = 128 points; point t works on row block t / 4 (512 rows of the
  result) and on contraction block t % 4 (4096 columns of the left operand, 4096 rows of the right one). Its body
  branches on the contraction block alone: at block 0 it first clears the accumulator, at block 3 it finally copies
  the accumulator into the output block. Every point is therefore in one of three cases,

      FIRST  (t % 4 = 0)      clear, then accumulate;
      MIDDLE (t % 4 = 1, 2)   accumulate;
      LAST   (t % 4 = 3)      accumulate, then copy out,

  and the output's staging buffer is stored into in the last case only — which is also the only case whose block is
  written back to the result array. This module states the two conditions as the body computes them, decides them
  over the grid, says where the output window is idle, names the staging memrefs the body is called with at a
  point, and spells the region's invariant over the accumulator. Everything is generic in the float instance.
-/
import proofs.«120956_j29738353557516_1_alg».proof.Proof.Gen.Kernel.Launch
import proofs.«120956_j29738353557516_1_alg».proof.Proof.Gen.Kernel.Skeleton
import proofs.«120956_j29738353557516_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "The contraction block is the first one", as the body's integer chain computes it from the grid point. -/
abbrev isFirst (i : grid0.Coords) : Prop :=
  (Scalar.cmpi .ne (Scalar.extui (Scalar.cmpi .eq (BitVec.ofNat 32 (i 1).val) 0#32)) 0#32) = 1#1

/-- It holds exactly at the points t with t % 4 = 0. -/
theorem isFirst_iff : ∀ t : Fin cfg0.N, isFirst (grid0.coords t) ↔ t.val % 4 = 0 :=
  (by decide +kernel : ∀ t : Fin grid0.N, isFirst (grid0.coords t) ↔ t.val % 4 = 0)

/-- "The contraction block is the last one". -/
abbrev isLast (i : grid0.Coords) : Prop := k0_cond2 i = 1#1

/-- It holds exactly at the points t with t % 4 = 3. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

/-- The two operand windows are stored into nowhere, so they are idle nowhere. -/
theorem lhs_live : ∀ t : Fin cfg0.N, cfg0.idle 0 (grid0.coords t) = false := by decide +kernel
theorem rhs_live : ∀ t : Fin cfg0.N, cfg0.idle 1 (grid0.coords t) = false := by decide +kernel

/-- Before the last contraction block the body stores nothing into the output's staging buffer, -/
theorem out_idle : ∀ t : Fin cfg0.N, ¬isLast (grid0.coords t) → cfg0.idle 2 (grid0.coords t) = true := by decide +kernel
/-- and the block is not written back there; -/
theorem out_kept : ∀ t : Fin cfg0.N, ¬isLast (grid0.coords t) → (cfg0.win 2).flush t = false := by decide +kernel
/-- at the last contraction block it is stored. -/
theorem out_live : ∀ t : Fin cfg0.N, isLast (grid0.coords t) → cfg0.idle 2 (grid0.coords t) = false := by decide +kernel

/-! ## The memrefs the body is called with -/

/-- The staging memref each window is on at point t, as the pipeline passes it to the body, and its wholeness. -/
abbrev stLhs (t : Fin cfg0.N) : Memref sig .tc .vmem S512x4096 .f32 := win0_0.stage (cfg0.slots t 0)
abbrev stLhs_whole (t : Fin cfg0.N) : (stLhs t).IsWhole := hstage0_0 ((cfg0.slots t 0).cast nbuf0_0)
abbrev stRhs (t : Fin cfg0.N) : Memref sig .tc .vmem S4096x64 .f32 := win0_1.stage (cfg0.slots t 1)
abbrev stRhs_whole (t : Fin cfg0.N) : (stRhs t).IsWhole := hstage0_1 ((cfg0.slots t 1).cast nbuf0_1)
abbrev stOut (t : Fin cfg0.N) : Memref sig .tc .vmem S512x64 .f32 := win0_2.stage (cfg0.slots t 2)
abbrev stOut_whole (t : Fin cfg0.N) : (stOut t).IsWhole := hstage0_2 ((cfg0.slots t 2).cast nbuf0_2)

/-- The accumulator: a whole scoped buffer of the kernel's own, passed beside the windows, -/
abbrev accM : Memref sig .tc .vmem S512x64 .f32 := Memref.whole cc0_scratch0
/-- and the view through which its contents are stated. -/
abbrev accV : View sig .tc .vmem S512x64 .f32 := accM.view
/-- One staging buffer of the output window, through which an output block's contents are stated (for stores that
    cover the block the choice does not matter). -/
abbrev outV : View sig .tc .vmem S512x64 .f32 := (Memref.whole cc0_stg2_0 : Memref sig .tc .vmem S512x64 .f32).view

/-- What the launch hands the region beside the windows: the accumulator, whole, at some contents, and the
    generator register at some state. -/
theorem launchInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Region

end
-- ==== Proof.KernelRunFirst.lean ====
/-
  The body at a point of the FIRST case (contraction block 0), on any whole staging memrefs: with the two operand
  blocks in their buffers, the output's buffer at any contents (it is handed back untouched) and the accumulator at
  anything, the body runs to its end, leaving the operand buffers as they were and the accumulator overwritten by its
  two stores — the zero splat, then the zero splat plus the product of the two blocks. What the stores leave is kept
  as the list of stored pieces the symbolic run of the body finds; the list is the run's witness.
-/
import proofs.«120956_j29738353557516_1_alg».proof.Proof.KernelCases

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The FIRST case: no piece for the output (nothing is stored there), the accumulator's pieces found by the run. -/
noncomputable def runFirst (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hf : isFirst i) (hl : ¬isLast i)
    (x0 : Vec F S512x4096 .f32) (x1 : Vec F S4096x64 .f32) :
    Σ' (LO : List (View.Piece (Elt F) S512x64 .f32)), { LA : List (View.Piece (Elt F) S512x64 .f32) //
      ∀ (xo : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA)) -∗ K ⟨⟩))
          ⊢ wp frame (wpE (defs₀ (F := F)) Variants.none c none) E (cc0__matmul_kernel i arg2 harg2 arg3 harg3 arg4 harg4 arg5 harg5) K } := by
  refine ⟨[], ?_, fun xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%da, %fa, -, HA⟩, Hk⟩
    obtain rfl := harg2.eq_unread hf0; obtain rfl := harg3.eq_unread hf1; obtain rfl := harg4.eq_unread hf2
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.Kernel.Region

end
-- ==== Proof.KernelRunMiddle.lean ====
/-
  The body at a point of the MIDDLE case (contraction blocks 1 and 2), on any whole staging memrefs: with the two
  operand blocks in their buffers, the output's buffer at any contents (handed back untouched) and the accumulator at
  the contents the point before left, the body runs to its end, leaving the operand buffers as they were and the
  accumulator overwritten by its one store — its former contents plus the product of the two blocks. The stored
  pieces the symbolic run finds are the run's witness.
-/
import proofs.«120956_j29738353557516_1_alg».proof.Proof.KernelCases

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The MIDDLE case: no piece for the output, the accumulator's piece found by the run. -/
noncomputable def runMiddle (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : ¬isLast i)
    (x0 : Vec F S512x4096 .f32) (x1 : Vec F S4096x64 .f32) (xa : Vec F S512x64 .f32) :
    Σ' (LO : List (View.Piece (Elt F) S512x64 .f32)), { LA : List (View.Piece (Elt F) S512x64 .f32) //
      ∀ (xo : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xa
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA)) -∗ K ⟨⟩))
          ⊢ wp frame (wpE (defs₀ (F := F)) Variants.none c none) E (cc0__matmul_kernel i arg2 harg2 arg3 harg3 arg4 harg4 arg5 harg5) K } := by
  refine ⟨[], ?_, fun xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fa, %hfa, HA⟩, Hk⟩
    obtain rfl := harg2.eq_unread hf0; obtain rfl := harg3.eq_unread hf1; obtain rfl := harg4.eq_unread hf2; obtain rfl := harg5.eq_unread hfa
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.Kernel.Region

end
-- ==== Proof.KernelRunLast.lean ====
/-
  The body at a point of the LAST case (contraction block 3), on any whole staging memrefs: with the two operand
  blocks in their buffers, the output's buffer at anything and the accumulator at the contents the point before
  left, the body runs to its end, leaving the operand buffers as they were, the accumulator overwritten by its one
  store — its former contents plus the product of the two blocks — and the output's buffer overwritten by a copy of
  that. The stored pieces the symbolic run finds, for the output and for the accumulator, are the run's witness.
-/
import proofs.«120956_j29738353557516_1_alg».proof.Proof.KernelCases

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The LAST case: the output's piece and the accumulator's piece, both found by the run. -/
noncomputable def runLast (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : isLast i)
    (x0 : Vec F S512x4096 .f32) (x1 : Vec F S4096x64 .f32) (xa : Vec F S512x64 .f32) :
    Σ' (LO : List (View.Piece (Elt F) S512x64 .f32)), { LA : List (View.Piece (Elt F) S512x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LA)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fa, %hfa, HA⟩, Hk⟩
    obtain rfl := harg2.eq_unread hf0; obtain rfl := harg3.eq_unread hf1; obtain rfl := harg5.eq_unread hfa
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HA

end Cert.Kernel.Region

end
-- ==== Proof.KernelAround.lean ====
/-
  @main is the kernel's region followed by ninety-seven host lines (eighteen, the three of the outlined select, and
  seventy-six more): the graph-convolution aggregation, the two row gathers and the pairwise term, all computed from the
  region's result and the arguments. Nothing runs before the region, so the region finds every buffer as launched.
  This module collects what the launch of a region CONTINUED BY host lines asks about those lines — they touch only
  TensorCore buffers, allocate nothing, and write neither an argument nor an array the region's windows stage (each
  line writes its own result buffer only) — reads a window's block off its array, and turns a run of that shape into
  the frame claim: the two staged arguments end at their entry contents, the five others are written by no one.
  Everything is generic in the float instance.
-/
import proofs.«120956_j29738353557516_1_alg».proof.Proof.Gen.Kernel.Launch
import proofs.«120956_j29738353557516_1_alg».proof.Proof.Gen.Kernel.Points
import Idealize.ShloMosaic.Lib.Pipeline.FrameBody
import Idealize.ShloMosaic.Lib.Pipeline.FrameSuffix
import Idealize.ShloMosaic.Lib.StableHlo.Run

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core c's buffer contents when the region is entered, as a valuation: no host line runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl
theorem V_arg6 (c : Dev nD) : V m c main_arg6 = m ((c : Thread nD τ).loc main_arg6) := rfl

/-! ## The host lines after the region -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

set_option maxHeartbeats 4000000 in
/-- @main is the region continued by the three stretches of host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [] [hostOps1, hostOps1_1, hostOps1_2] (by simp only [List.Forall])
    (by simp only [List.Forall]) (fun c => (main_chain c).trans (congrArg Pipeline.chain (by
      simp only [List.map_nil, List.map_cons, List.nil_append, List.cons_append])))

/-- The later lines touch the pipeline's arrays and the buffers that bypass it only: each line's buffers are unscoped
    TensorCore references, and with nothing prefetched every such reference is one or the other. -/
theorem tail_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Each line writes its own result buffer, and a given buffer is none of the ninety-seven results: decided
    reference by reference along the three stretches. -/
local macro "tail_untouched" : tactic => `(tactic| (
  simp only [hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

set_option maxHeartbeats 4000000 in
theorem tail_leaves_main_arg0 : (([hostOps1, hostOps1_1, hostOps1_2] : List (List (HloOp τ sig (Elt F)))).flatten).Forall fun op => Proc.devRef .tc main_arg0 ∉ op.writes := by
  tail_untouched
set_option maxHeartbeats 4000000 in
theorem tail_leaves_main_arg1 : (([hostOps1, hostOps1_1, hostOps1_2] : List (List (HloOp τ sig (Elt F)))).flatten).Forall fun op => Proc.devRef .tc main_arg1 ∉ op.writes := by
  tail_untouched
set_option maxHeartbeats 4000000 in
theorem tail_leaves_main_arg2 : (([hostOps1, hostOps1_1, hostOps1_2] : List (List (HloOp τ sig (Elt F)))).flatten).Forall fun op => Proc.devRef .tc main_arg2 ∉ op.writes := by
  tail_untouched
set_option maxHeartbeats 4000000 in
theorem tail_leaves_main_arg3 : (([hostOps1, hostOps1_1, hostOps1_2] : List (List (HloOp τ sig (Elt F)))).flatten).Forall fun op => Proc.devRef .tc main_arg3 ∉ op.writes := by
  tail_untouched
set_option maxHeartbeats 4000000 in
theorem tail_leaves_main_arg4 : (([hostOps1, hostOps1_1, hostOps1_2] : List (List (HloOp τ sig (Elt F)))).flatten).Forall fun op => Proc.devRef .tc main_arg4 ∉ op.writes := by
  tail_untouched
set_option maxHeartbeats 4000000 in
theorem tail_leaves_main_arg5 : (([hostOps1, hostOps1_1, hostOps1_2] : List (List (HloOp τ sig (Elt F)))).flatten).Forall fun op => Proc.devRef .tc main_arg5 ∉ op.writes := by
  tail_untouched
set_option maxHeartbeats 4000000 in
theorem tail_leaves_main_arg6 : (([hostOps1, hostOps1_1, hostOps1_2] : List (List (HloOp τ sig (Elt F)))).flatten).Forall fun op => Proc.devRef .tc main_arg6 ∉ op.writes := by
  tail_untouched
set_option maxHeartbeats 4000000 in
theorem tail_leaves_main_v0 : (([hostOps1, hostOps1_1, hostOps1_2] : List (List (HloOp τ sig (Elt F)))).flatten).Forall fun op => Proc.devRef .tc main_v0 ∉ op.writes := by
  tail_untouched

/-- No later line writes an array of the pipeline (the two staged arguments and the region's result). -/
theorem tail_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop w
  have hmem : op ∈ ([hostOps1, hostOps1_1, hostOps1_2] : List (List (HloOp τ sig (Elt F)))).flatten :=
    List.mem_flatten.mpr ⟨ops, hops, hop⟩
  fin_cases w
  · exact (List.forall_iff_forall_mem.mp tail_leaves_main_arg1) op hmem
  · exact (List.forall_iff_forall_mem.mp tail_leaves_main_arg3) op hmem
  · exact (List.forall_iff_forall_mem.mp tail_leaves_main_v0) op hmem

/-- `main_arg0` is no array of the pipeline and no later line writes it: it ends as launched. -/
theorem end_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp tail_leaves_main_arg0),
    Pipeline.withArrays_of_ne _ c (V0 m c) _ main_arg0 (by exact (by decide : ∀ w, Pipeline.arrRef spec0 w ≠ main_arg0))]
  rfl
/-- `main_arg2` is no array of the pipeline and no later line writes it: it ends as launched. -/
theorem end_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp tail_leaves_main_arg2),
    Pipeline.withArrays_of_ne _ c (V0 m c) _ main_arg2 (by exact (by decide : ∀ w, Pipeline.arrRef spec0 w ≠ main_arg2))]
  rfl
/-- `main_arg4` is no array of the pipeline and no later line writes it: it ends as launched. -/
theorem end_main_arg4 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (List.forall_iff_forall_mem.mp tail_leaves_main_arg4),
    Pipeline.withArrays_of_ne _ c (V0 m c) _ main_arg4 (by exact (by decide : ∀ w, Pipeline.arrRef spec0 w ≠ main_arg4))]
  rfl
/-- `main_arg5` is no array of the pipeline and no later line writes it: it ends as launched. -/
theorem end_main_arg5 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := by
  unfold Pipeline.afterTail₀
  rw [StableHlo.after_of_forall_not_mem (b := Proc.devRef .tc main_arg5) _ _ (List.forall_iff_forall_mem.mp tail_leaves_main_arg5),
    Pipeline.withArrays_of_ne _ c (V0 m c) _ main_arg5 (by exact (by decide : ∀ w, Pipeline.arrRef spec0 w ≠ main_arg5))]
  rfl
/-- `main_arg6` is no array of the pipeline and no later line writes it: it ends as launched. -/
theorem end_main_arg6 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) := by
  unfold Pipeline.afterTail₀
  rw [StableHlo.after_of_forall_not_mem (b := Proc.devRef .tc main_arg6) _ _ (List.forall_iff_forall_mem.mp tail_leaves_main_arg6),
    Pipeline.withArrays_of_ne _ c (V0 m c) _ main_arg6 (by exact (by decide : ∀ w, Pipeline.arrRef spec0 w ≠ main_arg6))]
  rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An operand window's current staging buffer holds its block at every point, fetched there or not, for any proof
    data whose array is the entry contents and whose body leaves the block in place. -/
theorem lhs_before_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem rhs_before_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the entry contents, a run to the frame post — the two staged arguments at
    what the library computes for an input window (its entry contents), every other argument at what the later
    lines leave (its launch contents) — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    ((h c).2 main_arg0 (Pipeline.mem_restRefs_of main_arg0 (by decide) (by decide))).trans (end_main_arg0 m dats c),
    ((h c).1 0).trans (((dats 0 c).arrAt_in 0 rfl _).trans ((hA c 0).trans (V_arg1 m c))),
    ((h c).2 main_arg2 (Pipeline.mem_restRefs_of main_arg2 (by decide) (by decide))).trans (end_main_arg2 m dats c),
    ((h c).1 1).trans (((dats 0 c).arrAt_in 1 rfl _).trans ((hA c 1).trans (V_arg3 m c))),
    ((h c).2 main_arg4 (Pipeline.mem_restRefs_of main_arg4 (by decide) (by decide))).trans (end_main_arg4 m dats c),
    ((h c).2 main_arg5 (Pipeline.mem_restRefs_of main_arg5 (by decide) (by decide))).trans (end_main_arg5 m dats c),
    ((h c).2 main_arg6 (Pipeline.mem_restRefs_of main_arg6 (by decide) (by decide))).trans (end_main_arg6 m dats c)⟩) h

end Cert.Kernel.Region

end
-- ==== Proof.KernelFrame.lean ====
/-
  The frame of the matrix-product program: every weakly fair execution of @main — the kernel's region over its 128
  grid points, then the ninety-seven host lines — terminates without a fault and leaves the seven argument arrays as
  launched. The proof is the accumulation over the grid. After the body at point t the accumulator holds what the
  case of t (FIRST, MIDDLE or LAST) computes from the two operand blocks at t and, except in the first case, from
  what the point before left; the output's staging buffer is stored at the last contraction block only, and only
  there is it written back. These contents are defined by recursion on the point (`stepAt`), the region's invariant
  carries the accumulator at the previous point's contents (`inv`), and the body's three runs discharge the body
  obligation case by case. Everything is generic in the float instance.
-/
import proofs.«120956_j29738353557516_1_alg».proof.Proof.KernelRunFirst
import proofs.«120956_j29738353557516_1_alg».proof.Proof.KernelRunMiddle
import proofs.«120956_j29738353557516_1_alg».proof.Proof.KernelRunLast
import proofs.«120956_j29738353557516_1_alg».proof.Proof.KernelAround

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

section Cases
variable (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole)

/-- The accumulator's pieces tile it, in each case: every entry is covered by a store. -/
theorem accCover_first (hf : isFirst i) (hl : ¬isLast i) (x0 : Vec F S512x4096 .f32) (x1 : Vec F S4096x64 .f32) (y : S512x64.Idx) :
    ∃ pc ∈ (runFirst c i arg2 harg2 arg3 harg3 arg4 harg4 arg5 harg5 hf hl x0 x1).2.1, y ∈ pc.1.set :=
  View.cover_of_tiledL (runFirst c i arg2 harg2 arg3 harg3 arg4 harg4 arg5 harg5 hf hl x0 x1).2.1 S512x64.size (by sl_kernel_rfl) y
theorem accCover_middle (hf : ¬isFirst i) (hl : ¬isLast i) (x0 : Vec F S512x4096 .f32) (x1 : Vec F S4096x64 .f32) (xa : Vec F S512x64 .f32) (y : S512x64.Idx) :
    ∃ pc ∈ (runMiddle c i arg2 harg2 arg3 harg3 arg4 harg4 arg5 harg5 hf hl x0 x1 xa).2.1, y ∈ pc.1.set :=
  View.cover_of_tiledL (runMiddle c i arg2 harg2 arg3 harg3 arg4 harg4 arg5 harg5 hf hl x0 x1 xa).2.1 S512x64.size (by sl_kernel_rfl) y
theorem accCover_last (hf : ¬isFirst i) (hl : isLast i) (x0 : Vec F S512x4096 .f32) (x1 : Vec F S4096x64 .f32) (xa : Vec F S512x64 .f32) (y : S512x64.Idx) :
    ∃ pc ∈ (runLast c i arg2 harg2 arg3 harg3 arg4 harg4 arg5 harg5 hf hl x0 x1 xa).2.1, y ∈ pc.1.set :=
  View.cover_of_tiledL (runLast c i arg2 harg2 arg3 harg3 arg4 harg4 arg5 harg5 hf hl x0 x1 xa).2.1 S512x64.size (by sl_kernel_rfl) y
/-- In the last case the output's piece tiles its block. -/
theorem outCover_last (hf : ¬isFirst i) (hl : isLast i) (x0 : Vec F S512x4096 .f32) (x1 : Vec F S4096x64 .f32) (xa : Vec F S512x64 .f32) (y : S512x64.Idx) :
    ∃ pc ∈ (runLast c i arg2 harg2 arg3 harg3 arg4 harg4 arg5 harg5 hf hl x0 x1 xa).1, y ∈ pc.1.set :=
  View.cover_of_tiledL (runLast c i arg2 harg2 arg3 harg3 arg4 harg4 arg5 harg5 hf hl x0 x1 xa).1 S512x64.size (by sl_kernel_rfl) y

/-- What each case leaves in the accumulator: its pieces read back (over contents that do not matter: they cover). -/
def accFirst (hf : isFirst i) (hl : ¬isLast i) (x0 : Vec F S512x4096 .f32) (x1 : Vec F S4096x64 .f32) : Vec F S512x64 .f32 :=
  accV.read (Elt F) (accV.writes (Elt F) accV.junk (runFirst c i arg2 harg2 arg3 harg3 arg4 harg4 arg5 harg5 hf hl x0 x1).2.1)
def accMiddle (hf : ¬isFirst i) (hl : ¬isLast i) (x0 : Vec F S512x4096 .f32) (x1 : Vec F S4096x64 .f32) (xa : Vec F S512x64 .f32) : Vec F S512x64 .f32 :=
  accV.read (Elt F) (accV.writes (Elt F) accV.junk (runMiddle c i arg2 harg2 arg3 harg3 arg4 harg4 arg5 harg5 hf hl x0 x1 xa).2.1)
def accLast (hf : ¬isFirst i) (hl : isLast i) (x0 : Vec F S512x4096 .f32) (x1 : Vec F S4096x64 .f32) (xa : Vec F S512x64 .f32) : Vec F S512x64 .f32 :=
  accV.read (Elt F) (accV.writes (Elt F) accV.junk (runLast c i arg2 harg2 arg3 harg3 arg4 harg4 arg5 harg5 hf hl x0 x1 xa).2.1)
/-- What the last case leaves in the output's staging buffer. -/
def outLast (hf : ¬isFirst i) (hl : isLast i) (x0 : Vec F S512x4096 .f32) (x1 : Vec F S4096x64 .f32) (xa : Vec F S512x64 .f32) : Vec F S512x64 .f32 :=
  outV.read (Elt F) (outV.writes (Elt F) outV.junk (runLast c i arg2 harg2 arg3 harg3 arg4 harg4 arg5 harg5 hf hl x0 x1 xa).1)
/-- Where nothing is stored into the output's staging buffer its contents are not consulted (the window is idle and
    is not written back): a placeholder. -/
def outIdle : Vec F S512x64 .f32 := outV.read (Elt F) outV.junk

end Cases

/-! ## The accumulation over the grid -/

/-- What a point of each case leaves — the output's staging buffer, then the accumulator — from the point's operand
    blocks and what the point before left in the accumulator. -/
def firstPair (c : Dev nD) (t : Fin cfg0.N) (h0 : t.val % 4 = 0) : Vec F S512x64 .f32 × Vec F S512x64 .f32 :=
  (outIdle, accFirst c (grid0.coords t) (stLhs t) (stLhs_whole t) (stRhs t) (stRhs_whole t) (stOut t) (stOut_whole t) accM (Memref.isWhole_whole _) ((isFirst_iff t).mpr h0) (fun h => by have := (isLast_iff t).mp h; omega) (iblk m c 0 t) (iblk m c 1 t))
def middlePair (c : Dev nD) (t : Fin cfg0.N) (h0 : ¬t.val % 4 = 0) (h3 : ¬t.val % 4 = 3) (xa : Vec F S512x64 .f32) : Vec F S512x64 .f32 × Vec F S512x64 .f32 :=
  (outIdle, accMiddle c (grid0.coords t) (stLhs t) (stLhs_whole t) (stRhs t) (stRhs_whole t) (stOut t) (stOut_whole t) accM (Memref.isWhole_whole _) (fun h => h0 ((isFirst_iff t).mp h)) (fun h => h3 ((isLast_iff t).mp h)) (iblk m c 0 t) (iblk m c 1 t) xa)
def lastPair (c : Dev nD) (t : Fin cfg0.N) (h0 : ¬t.val % 4 = 0) (h3 : t.val % 4 = 3) (xa : Vec F S512x64 .f32) : Vec F S512x64 .f32 × Vec F S512x64 .f32 :=
  (outLast c (grid0.coords t) (stLhs t) (stLhs_whole t) (stRhs t) (stRhs_whole t) (stOut t) (stOut_whole t) accM (Memref.isWhole_whole _) (fun h => h0 ((isFirst_iff t).mp h)) ((isLast_iff t).mpr h3) (iblk m c 0 t) (iblk m c 1 t) xa,
   accLast c (grid0.coords t) (stLhs t) (stLhs_whole t) (stRhs t) (stRhs_whole t) (stOut t) (stOut_whole t) accM (Memref.isWhole_whole _) (fun h => h0 ((isFirst_iff t).mp h)) ((isLast_iff t).mpr h3) (iblk m c 0 t) (iblk m c 1 t) xa)

/-- THE ACCUMULATION: what the output's staging buffer and the accumulator hold after the body at position n. -/
def stepAt (c : Dev nD) : (n : ℕ) → n < cfg0.N → Vec F S512x64 .f32 × Vec F S512x64 .f32
  | 0, hn => firstPair m c ⟨0, hn⟩ (Nat.zero_mod 4)
  | n + 1, hn =>
    if h0 : (n + 1) % 4 = 0 then firstPair m c ⟨n + 1, hn⟩ h0
    else if h3 : (n + 1) % 4 = 3 then lastPair m c ⟨n + 1, hn⟩ h0 h3 (stepAt c n (Nat.lt_of_succ_lt hn)).2
    else middlePair m c ⟨n + 1, hn⟩ h0 h3 (stepAt c n (Nat.lt_of_succ_lt hn)).2

theorem stepAt_first (c : Dev nD) (t : Fin cfg0.N) (h0 : t.val % 4 = 0) : stepAt m c t.val t.isLt = firstPair m c t h0 := by
  obtain ⟨n, hn⟩ := t
  cases n with
  | zero => exact rfl
  | succ n => exact (dif_pos h0).trans rfl

theorem stepAt_middle (c : Dev nD) (t : Fin cfg0.N) (h0 : ¬t.val % 4 = 0) (h3 : ¬t.val % 4 = 3) :
    stepAt m c t.val t.isLt = middlePair m c t h0 h3 (stepAt m c (t.val - 1) (Nat.lt_of_le_of_lt (Nat.sub_le _ _) t.isLt)).2 := by
  obtain ⟨n, hn⟩ := t
  cases n with
  | zero => exact absurd (Nat.zero_mod 4) h0
  | succ n => exact (dif_neg h0).trans ((dif_neg h3).trans rfl)

theorem stepAt_last (c : Dev nD) (t : Fin cfg0.N) (h0 : ¬t.val % 4 = 0) (h3 : t.val % 4 = 3) :
    stepAt m c t.val t.isLt = lastPair m c t h0 h3 (stepAt m c (t.val - 1) (Nat.lt_of_le_of_lt (Nat.sub_le _ _) t.isLt)).2 := by
  obtain ⟨n, hn⟩ := t
  cases n with
  | zero => exact absurd (Nat.zero_mod 4) h0
  | succ n => exact (dif_neg h0).trans ((dif_pos h3).trans rfl)

/-! ## The region's invariant -/

/-- Before position n: at the region's entry what the launch hands over (the accumulator at anything); afterwards the
    accumulator at what the point before left, and the generator register at some state. -/
def inv (c : Dev nD) : (n : ℕ) → n ≤ cfg0.N → sProp 𝕄
  | 0, _ => Pipeline.ΦA spec0 c
  | n + 1, hn => iprop(iprop(owns (c : Thread nD τ) accM fullShare ((stepAt m c n hn).2)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) accM fullShare ((stepAt m c n hn).2)) ∗ (∃ r, prngReg c r)) := rfl

theorem inv_pos (c : Dev nD) (n : ℕ) (h : n ≤ cfg0.N) (hz : n ≠ 0) :
    inv m c n h = iprop(iprop(owns (c : Thread nD τ) accM fullShare ((stepAt m c (n - 1) (by omega)).2)) ∗ (∃ r, prngReg c r)) := by
  cases n with
  | zero => exact absurd rfl hz
  | succ n => rfl

/-! ## The proof data of the pipeline -/

/-- The arrays as the region finds them; after the body at point t each operand's buffer at its block and the
    output's at `stepAt`; the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stepAt m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after_lhs (c : Dev nD) (t : Fin cfg0.N) : (dats m 0 c).after 0 t = iblk m c 0 t := by dsimp only [dats]
theorem after_rhs (c : Dev nD) (t : Fin cfg0.N) : (dats m 0 c).after 1 t = iblk m c 1 t := by dsimp only [dats]
theorem after_out (c : Dev nD) (t : Fin cfg0.N) : (dats m 0 c).after 2 t = (stepAt m c t.val t.isLt).1 := by dsimp only [dats]

theorem lhs_before (c : Dev nD) (t : Fin cfg0.N) (d) : (dats m 0 c).before 0 t d = iblk m c 0 t :=
  lhs_before_of m (dats m 0 c) (A_eq m c 0) (after_lhs m c) t d
theorem rhs_before (c : Dev nD) (t : Fin cfg0.N) (d) : (dats m 0 c).before 1 t d = iblk m c 1 t :=
  rhs_before_of m (dats m 0 c) (A_eq m c 1) (after_rhs m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stLhs t) fullShare ((dats m 0 c).before 0 t d))
    ∗ (∃ d, owns (c : Thread nD τ) (stRhs t) fullShare ((dats m 0 c).before 1 t d))
    ∗ (∃ d, owns (c : Thread nD τ) (stOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the operands' buffers hold their blocks; the closed forms say which case the point is
    in; the invariant hands over the accumulator at what the point before left (at anything at the region's
    entry) and takes it back at this point's contents, the case's pieces covering it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [lhs_before, rhs_before]
  rw [show (dats m 0 c).owesAt () t.succ = (dats m 0 c).owesAt () t.castSucc from rfl]
  rw [show (dats m 0 c).Φ t.succ = inv m c (t.val + 1) t.isLt from rfl, inv_succ]
  have hN : t.val < 128 := lt_of_lt_of_eq t.isLt (show cfg0.N = 128 from N_0)
  rw [show (dats m 0 c).leavesExact 0 t = owns (c : Thread nD τ) (stLhs t) fullShare ((dats m 0 c).after 0 t) from by
    unfold Dat.leavesExact; rw [lhs_live t], after_lhs]
  rw [show (dats m 0 c).leavesExact 1 t = owns (c : Thread nD τ) (stRhs t) fullShare ((dats m 0 c).after 1 t) from by
    unfold Dat.leavesExact; rw [rhs_live t], after_rhs]
  by_cases h0 : t.val % 4 = 0
  · have hf : isFirst (grid0.coords t) := (isFirst_iff t).mpr h0
    have hl : ¬isLast (grid0.coords t) := fun h => by have := (isLast_iff t).mp h; omega
    rw [Dat.leavesExact_idle (dats m 0 c) 2 t (out_idle t hl) (out_kept t hl)]
    rw [stepAt_first m c t h0]
    unfold firstPair accFirst; (try dsimp only)
    by_cases hz : t.val = 0
    · rw [inv_castSucc m c t, inv_zero m c _ _ hz, launchInv_eq]
      iintro ⟨⟨HA, Hg⟩, Ho, ⟨%d0, H0⟩, ⟨%d1, H1⟩, ⟨%d2, H2⟩⟩
      iapply ((runFirst c (grid0.coords t) _ _ _ _ _ _ _ _ hf hl (iblk m c 0 t) (iblk m c 1 t)).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hg]
      · isplitl [HA]
        · unfold owns; iexists _; isplitr
          swap; · iexact HA
          ipureintro; exact View.read_writes_of_cover _ _ _ _ _ (accCover_first c _ _ _ _ _ _ _ _ _ _ _ _ _)
        iexact Hg
      isplitl [Ho]; · iexact Ho
      isplitl [H0]; · iexact H0
      isplitl [H1]; · iexact H1
      iexists _; iexact H2
    · rw [inv_castSucc m c t, inv_pos m c _ _ hz]
      iintro ⟨⟨HA, Hg⟩, Ho, ⟨%d0, H0⟩, ⟨%d1, H1⟩, ⟨%d2, H2⟩⟩
      iapply ((runFirst c (grid0.coords t) _ _ _ _ _ _ _ _ hf hl (iblk m c 0 t) (iblk m c 1 t)).2.2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA Hg]
      · isplitl [HA]
        · unfold owns; iexists _; isplitr
          swap; · iexact HA
          ipureintro; exact View.read_writes_of_cover _ _ _ _ _ (accCover_first c _ _ _ _ _ _ _ _ _ _ _ _ _)
        iexact Hg
      isplitl [Ho]; · iexact Ho
      isplitl [H0]; · iexact H0
      isplitl [H1]; · iexact H1
      iexists _; iexact H2
  · have hf : ¬isFirst (grid0.coords t) := fun h => h0 ((isFirst_iff t).mp h)
    have hz : t.val ≠ 0 := fun h => h0 (by rw [h])
    by_cases h3 : t.val % 4 = 3
    · have hl : isLast (grid0.coords t) := (isLast_iff t).mpr h3
      rw [show (dats m 0 c).leavesExact 2 t = owns (c : Thread nD τ) (stOut t) fullShare ((dats m 0 c).after 2 t) from by
        unfold Dat.leavesExact; rw [out_live t hl], after_out]
      rw [stepAt_last m c t h0 h3]
      unfold lastPair outLast accLast; (try dsimp only)
      rw [inv_castSucc m c t, inv_pos m c _ _ hz]
      iintro ⟨⟨HA, Hg⟩, Ho, ⟨%d0, H0⟩, ⟨%d1, H1⟩, ⟨%d2, H2⟩⟩
      iapply ((runLast c (grid0.coords t) _ _ _ _ _ _ _ _ hf hl (iblk m c 0 t) (iblk m c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hg]
      · isplitl [HA]
        · unfold owns; iexists _; isplitr
          swap; · iexact HA
          ipureintro; exact View.read_writes_of_cover _ _ _ _ _ (accCover_last c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last c _ _ _ _ _ _ _ _ _ _ _ _ _ _)
    · have hl : ¬isLast (grid0.coords t) := fun h => h3 ((isLast_iff t).mp h)
      rw [Dat.leavesExact_idle (dats m 0 c) 2 t (out_idle t hl) (out_kept t hl)]
      rw [stepAt_middle m c t h0 h3]
      unfold middlePair accMiddle; (try dsimp only)
      rw [inv_castSucc m c t, inv_pos m c _ _ hz]
      iintro ⟨⟨HA, Hg⟩, Ho, ⟨%d0, H0⟩, ⟨%d1, H1⟩, ⟨%d2, H2⟩⟩
      iapply ((runMiddle c (grid0.coords t) _ _ _ _ _ _ _ _ hf hl (iblk m c 0 t) (iblk m c 1 t) _).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hg]
      · isplitl [HA]
        · unfold owns; iexists _; isplitr
          swap; · iexact HA
          ipureintro; exact View.read_writes_of_cover _ _ _ _ _ (accCover_middle c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After any point the invariant gives the launch's form back: the accumulator's contents are forgotten. -/
theorem inv_forget (c : Dev nD) (t : Fin (cfg0.N + 1)) (ht : t.val ≠ 0) : (dats m 0 c).Φ t ⊢ Pipeline.ΦA spec0 c := by
  rw [show (dats m 0 c).Φ t = inv m c t.val (Nat.le_of_lt_succ t.isLt) from rfl, inv_pos m c _ _ ht, launchInv_eq]
  iintro ⟨HA, Hg⟩
  isplitl [HA]
  · iexists _; iexact HA
  iexact Hg

theorem inv_out (c : Dev nD) : (dats m 0 c).Φ (Fin.last cfg0.N) ⊢ Pipeline.ΦA spec0 c :=
  inv_forget m c _ (by rw [Fin.val_last]; have : cfg0.N = 128 := N_0; omega)

/-! ## The run and the frame -/

set_option maxHeartbeats 8000000 in
set_option backward.isDefEq.respectTransparency.types false in
/-- From any memory with zero counters every weakly fair execution of @main terminates, and every final state has
    each array of the pipeline at what the library computes from the proof data and every other unscoped buffer as
    the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := tail_sub) (hfresh := tail_fresh) (hkeep := tail_keeps)
    (hmain := hmain m Variants.none) (hA := A_eq m) (hin := inv_in m) (hout := inv_out m)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Region

end
-- ==== Proof.KernelIdealCases.lean ====
/-
  The matrix-product kernel runs on a grid of 32 · 4 = 128 points; point t works on row block t / 4 (512 rows of the
  result) and on contraction block t % 4 (4096 columns of the left operand, 4096 rows of the right one). Its body
  branches on the contraction block alone: at block 0 it first clears the accumulator, at block 3 it finally copies
  the accumulator into the output block. Every point is therefore in one of three cases,

      FIRST  (t % 4 = 0)      clear, then accumulate;
      MIDDLE (t % 4 = 1, 2)   accumulate;
      LAST   (t % 4 = 3)      accumulate, then copy out,

  and the output's staging buffer is stored into in the last case only — which is also the only case whose block is
  written back to the result array. This module states the two conditions as the body computes them, decides them
  over the grid, says where the output window is idle, names the staging memrefs the body is called with at a
  point, and spells the region's invariant over the accumulator. Everything is generic in the float instance.
-/
import proofs.«120956_j29738353557516_1_alg».proof.Proof.Gen.KernelIdeal.Launch
import proofs.«120956_j29738353557516_1_alg».proof.Proof.Gen.KernelIdeal.Skeleton
import proofs.«120956_j29738353557516_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "The contraction block is the first one", as the body's integer chain computes it from the grid point. -/
abbrev isFirst (i : grid0.Coords) : Prop :=
  (Scalar.cmpi .ne (Scalar.extui (Scalar.cmpi .eq (BitVec.ofNat 32 (i 1).val) 0#32)) 0#32) = 1#1

/-- It holds exactly at the points t with t % 4 = 0. -/
theorem isFirst_iff : ∀ t : Fin cfg0.N, isFirst (grid0.coords t) ↔ t.val % 4 = 0 :=
  (by decide +kernel : ∀ t : Fin grid0.N, isFirst (grid0.coords t) ↔ t.val % 4 = 0)

/-- "The contraction block is the last one". -/
abbrev isLast (i : grid0.Coords) : Prop := k0_cond2 i = 1#1

/-- It holds exactly at the points t with t % 4 = 3. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

/-- The two operand windows are stored into nowhere, so they are idle nowhere. -/
theorem lhs_live : ∀ t : Fin cfg0.N, cfg0.idle 0 (grid0.coords t) = false := by decide +kernel
theorem rhs_live : ∀ t : Fin cfg0.N, cfg0.idle 1 (grid0.coords t) = false := by decide +kernel

/-- Before the last contraction block the body stores nothing into the output's staging buffer, -/
theorem out_idle : ∀ t : Fin cfg0.N, ¬isLast (grid0.coords t) → cfg0.idle 2 (grid0.coords t) = true := by decide +kernel
/-- and the block is not written back there; -/
theorem out_kept : ∀ t : Fin cfg0.N, ¬isLast (grid0.coords t) → (cfg0.win 2).flush t = false := by decide +kernel
/-- at the last contraction block it is stored. -/
theorem out_live : ∀ t : Fin cfg0.N, isLast (grid0.coords t) → cfg0.idle 2 (grid0.coords t) = false := by decide +kernel

/-! ## The memrefs the body is called with -/

/-- The staging memref each window is on at point t, as the pipeline passes it to the body, and its wholeness. -/
abbrev stLhs (t : Fin cfg0.N) : Memref sig .tc .vmem S512x4096 .f32 := win0_0.stage (cfg0.slots t 0)
abbrev stLhs_whole (t : Fin cfg0.N) : (stLhs t).IsWhole := hstage0_0 ((cfg0.slots t 0).cast nbuf0_0)
abbrev stRhs (t : Fin cfg0.N) : Memref sig .tc .vmem S4096x64 .f32 := win0_1.stage (cfg0.slots t 1)
abbrev stRhs_whole (t : Fin cfg0.N) : (stRhs t).IsWhole := hstage0_1 ((cfg0.slots t 1).cast nbuf0_1)
abbrev stOut (t : Fin cfg0.N) : Memref sig .tc .vmem S512x64 .f32 := win0_2.stage (cfg0.slots t 2)
abbrev stOut_whole (t : Fin cfg0.N) : (stOut t).IsWhole := hstage0_2 ((cfg0.slots t 2).cast nbuf0_2)

/-- The accumulator: a whole scoped buffer of the kernel's own, passed beside the windows, -/
abbrev accM : Memref sig .tc .vmem S512x64 .f32 := Memref.whole cc0_scratch0
/-- and the view through which its contents are stated. -/
abbrev accV : View sig .tc .vmem S512x64 .f32 := accM.view
/-- One staging buffer of the output window, through which an output block's contents are stated (for stores that
    cover the block the choice does not matter). -/
abbrev outV : View sig .tc .vmem S512x64 .f32 := (Memref.whole cc0_stg2_0 : Memref sig .tc .vmem S512x64 .f32).view

/-- What the launch hands the region beside the windows: the accumulator, whole, at some contents, and the
    generator register at some state. -/
theorem launchInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Region

end
-- ==== Proof.KernelIdealRunFirst.lean ====
/-
  The body at a point of the FIRST case (contraction block 0), on any whole staging memrefs: with the two operand
  blocks in their buffers, the output's buffer at any contents (it is handed back untouched) and the accumulator at
  anything, the body runs to its end, leaving the operand buffers as they were and the accumulator overwritten by its
  two stores — the zero splat, then the zero splat plus the product of the two blocks. What the stores leave is kept
  as the list of stored pieces the symbolic run of the body finds; the list is the run's witness.
-/
import proofs.«120956_j29738353557516_1_alg».proof.Proof.KernelIdealCases

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The FIRST case: no piece for the output (nothing is stored there), the accumulator's pieces found by the run. -/
noncomputable def runFirst (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hf : isFirst i) (hl : ¬isLast i)
    (x0 : Vec F S512x4096 .f32) (x1 : Vec F S4096x64 .f32) :
    Σ' (LO : List (View.Piece (Elt F) S512x64 .f32)), { LA : List (View.Piece (Elt F) S512x64 .f32) //
      ∀ (xo : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA)) -∗ K ⟨⟩))
          ⊢ wp frame (wpE (defs₀ (F := F)) Variants.none c none) E (cc0__matmul_kernel i arg2 harg2 arg3 harg3 arg4 harg4 arg5 harg5) K } := by
  refine ⟨[], ?_, fun xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%da, %fa, -, HA⟩, Hk⟩
    obtain rfl := harg2.eq_unread hf0; obtain rfl := harg3.eq_unread hf1; obtain rfl := harg4.eq_unread hf2
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.KernelIdeal.Region

end
-- ==== Proof.KernelIdealRunMiddle.lean ====
/-
  The body at a point of the MIDDLE case (contraction blocks 1 and 2), on any whole staging memrefs: with the two
  operand blocks in their buffers, the output's buffer at any contents (handed back untouched) and the accumulator at
  the contents the point before left, the body runs to its end, leaving the operand buffers as they were and the
  accumulator overwritten by its one store — its former contents plus the product of the two blocks. The stored
  pieces the symbolic run finds are the run's witness.
-/
import proofs.«120956_j29738353557516_1_alg».proof.Proof.KernelIdealCases

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The MIDDLE case: no piece for the output, the accumulator's piece found by the run. -/
noncomputable def runMiddle (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : ¬isLast i)
    (x0 : Vec F S512x4096 .f32) (x1 : Vec F S4096x64 .f32) (xa : Vec F S512x64 .f32) :
    Σ' (LO : List (View.Piece (Elt F) S512x64 .f32)), { LA : List (View.Piece (Elt F) S512x64 .f32) //
      ∀ (xo : Vec F S512x64 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xa
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LA)) -∗ K ⟨⟩))
          ⊢ wp frame (wpE (defs₀ (F := F)) Variants.none c none) E (cc0__matmul_kernel i arg2 harg2 arg3 harg3 arg4 harg4 arg5 harg5) K } := by
  refine ⟨[], ?_, fun xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fa, %hfa, HA⟩, Hk⟩
    obtain rfl := harg2.eq_unread hf0; obtain rfl := harg3.eq_unread hf1; obtain rfl := harg4.eq_unread hf2; obtain rfl := harg5.eq_unread hfa
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HA

end Cert.KernelIdeal.Region

end
-- ==== Proof.KernelIdealRunLast.lean ====
/-
  The body at a point of the LAST case (contraction block 3), on any whole staging memrefs: with the two operand
  blocks in their buffers, the output's buffer at anything and the accumulator at the contents the point before
  left, the body runs to its end, leaving the operand buffers as they were, the accumulator overwritten by its one
  store — its former contents plus the product of the two blocks — and the output's buffer overwritten by a copy of
  that. The stored pieces the symbolic run finds, for the output and for the accumulator, are the run's witness.
-/
import proofs.«120956_j29738353557516_1_alg».proof.Proof.KernelIdealCases

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The LAST case: the output's piece and the accumulator's piece, both found by the run. -/
noncomputable def runLast (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole) (hf : ¬isFirst i) (hl : isLast i)
    (x0 : Vec F S512x4096 .f32) (x1 : Vec F S4096x64 .f32) (xa : Vec F S512x64 .f32) :
    Σ' (LO : List (View.Piece (Elt F) S512x64 .f32)), { LA : List (View.Piece (Elt F) S512x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LA)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fa, %hfa, HA⟩, Hk⟩
    obtain rfl := harg2.eq_unread hf0; obtain rfl := harg3.eq_unread hf1; obtain rfl := harg5.eq_unread hfa
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HA

end Cert.KernelIdeal.Region

end
-- ==== Proof.KernelIdealAround.lean ====
/-
  @main is the kernel's region followed by ninety-seven host lines (eighteen, the three of the outlined select, and
  seventy-six more): the graph-convolution aggregation, the two row gathers and the pairwise term, all computed from the
  region's result and the arguments. Nothing runs before the region, so the region finds every buffer as launched.
  This module collects what the launch of a region CONTINUED BY host lines asks about those lines — they touch only
  TensorCore buffers, allocate nothing, and write neither an argument nor an array the region's windows stage (each
  line writes its own result buffer only) — reads a window's block off its array, and turns a run of that shape into
  the frame claim: the two staged arguments end at their entry contents, the five others are written by no one.
  Everything is generic in the float instance.
-/
import proofs.«120956_j29738353557516_1_alg».proof.Proof.Gen.KernelIdeal.Launch
import proofs.«120956_j29738353557516_1_alg».proof.Proof.Gen.KernelIdeal.Points
import Idealize.ShloMosaic.Lib.Pipeline.FrameBody
import Idealize.ShloMosaic.Lib.Pipeline.FrameSuffix
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core c's buffer contents when the region is entered, as a valuation: no host line runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl
theorem V_arg6 (c : Dev nD) : V m c main_arg6 = m ((c : Thread nD τ).loc main_arg6) := rfl

/-! ## The host lines after the region -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

set_option maxHeartbeats 4000000 in
/-- @main is the region continued by the three stretches of host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [] [hostOps1, hostOps1_1, hostOps1_2] (by simp only [List.Forall])
    (by simp only [List.Forall]) (fun c => (main_chain c).trans (congrArg Pipeline.chain (by
      simp only [List.map_nil, List.map_cons, List.nil_append, List.cons_append])))

/-- The later lines touch the pipeline's arrays and the buffers that bypass it only: each line's buffers are unscoped
    TensorCore references, and with nothing prefetched every such reference is one or the other. -/
theorem tail_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Each line writes its own result buffer, and a given buffer is none of the ninety-seven results: decided
    reference by reference along the three stretches. -/
local macro "tail_untouched" : tactic => `(tactic| (
  simp only [hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

set_option maxHeartbeats 4000000 in
theorem tail_leaves_main_arg0 : (([hostOps1, hostOps1_1, hostOps1_2] : List (List (HloOp τ sig (Elt F)))).flatten).Forall fun op => Proc.devRef .tc main_arg0 ∉ op.writes := by
  tail_untouched
set_option maxHeartbeats 4000000 in
theorem tail_leaves_main_arg1 : (([hostOps1, hostOps1_1, hostOps1_2] : List (List (HloOp τ sig (Elt F)))).flatten).Forall fun op => Proc.devRef .tc main_arg1 ∉ op.writes := by
  tail_untouched
set_option maxHeartbeats 4000000 in
theorem tail_leaves_main_arg2 : (([hostOps1, hostOps1_1, hostOps1_2] : List (List (HloOp τ sig (Elt F)))).flatten).Forall fun op => Proc.devRef .tc main_arg2 ∉ op.writes := by
  tail_untouched
set_option maxHeartbeats 4000000 in
theorem tail_leaves_main_arg3 : (([hostOps1, hostOps1_1, hostOps1_2] : List (List (HloOp τ sig (Elt F)))).flatten).Forall fun op => Proc.devRef .tc main_arg3 ∉ op.writes := by
  tail_untouched
set_option maxHeartbeats 4000000 in
theorem tail_leaves_main_arg4 : (([hostOps1, hostOps1_1, hostOps1_2] : List (List (HloOp τ sig (Elt F)))).flatten).Forall fun op => Proc.devRef .tc main_arg4 ∉ op.writes := by
  tail_untouched
set_option maxHeartbeats 4000000 in
theorem tail_leaves_main_arg5 : (([hostOps1, hostOps1_1, hostOps1_2] : List (List (HloOp τ sig (Elt F)))).flatten).Forall fun op => Proc.devRef .tc main_arg5 ∉ op.writes := by
  tail_untouched
set_option maxHeartbeats 4000000 in
theorem tail_leaves_main_arg6 : (([hostOps1, hostOps1_1, hostOps1_2] : List (List (HloOp τ sig (Elt F)))).flatten).Forall fun op => Proc.devRef .tc main_arg6 ∉ op.writes := by
  tail_untouched
set_option maxHeartbeats 4000000 in
theorem tail_leaves_main_v0 : (([hostOps1, hostOps1_1, hostOps1_2] : List (List (HloOp τ sig (Elt F)))).flatten).Forall fun op => Proc.devRef .tc main_v0 ∉ op.writes := by
  tail_untouched

/-- No later line writes an array of the pipeline (the two staged arguments and the region's result). -/
theorem tail_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop w
  have hmem : op ∈ ([hostOps1, hostOps1_1, hostOps1_2] : List (List (HloOp τ sig (Elt F)))).flatten :=
    List.mem_flatten.mpr ⟨ops, hops, hop⟩
  fin_cases w
  · exact (List.forall_iff_forall_mem.mp tail_leaves_main_arg1) op hmem
  · exact (List.forall_iff_forall_mem.mp tail_leaves_main_arg3) op hmem
  · exact (List.forall_iff_forall_mem.mp tail_leaves_main_v0) op hmem

/-- `main_arg0` is no array of the pipeline and no later line writes it: it ends as launched. -/
theorem end_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp tail_leaves_main_arg0),
    Pipeline.withArrays_of_ne _ c (V0 m c) _ main_arg0 (by exact (by decide : ∀ w, Pipeline.arrRef spec0 w ≠ main_arg0))]
  rfl
/-- `main_arg2` is no array of the pipeline and no later line writes it: it ends as launched. -/
theorem end_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp tail_leaves_main_arg2),
    Pipeline.withArrays_of_ne _ c (V0 m c) _ main_arg2 (by exact (by decide : ∀ w, Pipeline.arrRef spec0 w ≠ main_arg2))]
  rfl
/-- `main_arg4` is no array of the pipeline and no later line writes it: it ends as launched. -/
theorem end_main_arg4 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (List.forall_iff_forall_mem.mp tail_leaves_main_arg4),
    Pipeline.withArrays_of_ne _ c (V0 m c) _ main_arg4 (by exact (by decide : ∀ w, Pipeline.arrRef spec0 w ≠ main_arg4))]
  rfl
/-- `main_arg5` is no array of the pipeline and no later line writes it: it ends as launched. -/
theorem end_main_arg5 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := by
  unfold Pipeline.afterTail₀
  rw [StableHlo.after_of_forall_not_mem (b := Proc.devRef .tc main_arg5) _ _ (List.forall_iff_forall_mem.mp tail_leaves_main_arg5),
    Pipeline.withArrays_of_ne _ c (V0 m c) _ main_arg5 (by exact (by decide : ∀ w, Pipeline.arrRef spec0 w ≠ main_arg5))]
  rfl
/-- `main_arg6` is no array of the pipeline and no later line writes it: it ends as launched. -/
theorem end_main_arg6 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) := by
  unfold Pipeline.afterTail₀
  rw [StableHlo.after_of_forall_not_mem (b := Proc.devRef .tc main_arg6) _ _ (List.forall_iff_forall_mem.mp tail_leaves_main_arg6),
    Pipeline.withArrays_of_ne _ c (V0 m c) _ main_arg6 (by exact (by decide : ∀ w, Pipeline.arrRef spec0 w ≠ main_arg6))]
  rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An operand window's current staging buffer holds its block at every point, fetched there or not, for any proof
    data whose array is the entry contents and whose body leaves the block in place. -/
theorem lhs_before_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem rhs_before_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the entry contents, a run to the frame post — the two staged arguments at
    what the library computes for an input window (its entry contents), every other argument at what the later
    lines leave (its launch contents) — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    ((h c).2 main_arg0 (Pipeline.mem_restRefs_of main_arg0 (by decide) (by decide))).trans (end_main_arg0 m dats c),
    ((h c).1 0).trans (((dats 0 c).arrAt_in 0 rfl _).trans ((hA c 0).trans (V_arg1 m c))),
    ((h c).2 main_arg2 (Pipeline.mem_restRefs_of main_arg2 (by decide) (by decide))).trans (end_main_arg2 m dats c),
    ((h c).1 1).trans (((dats 0 c).arrAt_in 1 rfl _).trans ((hA c 1).trans (V_arg3 m c))),
    ((h c).2 main_arg4 (Pipeline.mem_restRefs_of main_arg4 (by decide) (by decide))).trans (end_main_arg4 m dats c),
    ((h c).2 main_arg5 (Pipeline.mem_restRefs_of main_arg5 (by decide) (by decide))).trans (end_main_arg5 m dats c),
    ((h c).2 main_arg6 (Pipeline.mem_restRefs_of main_arg6 (by decide) (by decide))).trans (end_main_arg6 m dats c)⟩) h

end Cert.KernelIdeal.Region

end
-- ==== Proof.KernelIdealFrame.lean ====
/-
  The frame of the matrix-product program: every weakly fair execution of @main — the kernel's region over its 128
  grid points, then the ninety-seven host lines — terminates without a fault and leaves the seven argument arrays as
  launched. The proof is the accumulation over the grid. After the body at point t the accumulator holds what the
  case of t (FIRST, MIDDLE or LAST) computes from the two operand blocks at t and, except in the first case, from
  what the point before left; the output's staging buffer is stored at the last contraction block only, and only
  there is it written back. These contents are defined by recursion on the point (`stepAt`), the region's invariant
  carries the accumulator at the previous point's contents (`inv`), and the body's three runs discharge the body
  obligation case by case. Everything is generic in the float instance.
-/
import proofs.«120956_j29738353557516_1_alg».proof.Proof.KernelIdealRunFirst
import proofs.«120956_j29738353557516_1_alg».proof.Proof.KernelIdealRunMiddle
import proofs.«120956_j29738353557516_1_alg».proof.Proof.KernelIdealRunLast
import proofs.«120956_j29738353557516_1_alg».proof.Proof.KernelIdealAround

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

section Cases
variable (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole)

/-- The accumulator's pieces tile it, in each case: every entry is covered by a store. -/
theorem accCover_first (hf : isFirst i) (hl : ¬isLast i) (x0 : Vec F S512x4096 .f32) (x1 : Vec F S4096x64 .f32) (y : S512x64.Idx) :
    ∃ pc ∈ (runFirst c i arg2 harg2 arg3 harg3 arg4 harg4 arg5 harg5 hf hl x0 x1).2.1, y ∈ pc.1.set :=
  View.cover_of_tiledL (runFirst c i arg2 harg2 arg3 harg3 arg4 harg4 arg5 harg5 hf hl x0 x1).2.1 S512x64.size (by sl_kernel_rfl) y
theorem accCover_middle (hf : ¬isFirst i) (hl : ¬isLast i) (x0 : Vec F S512x4096 .f32) (x1 : Vec F S4096x64 .f32) (xa : Vec F S512x64 .f32) (y : S512x64.Idx) :
    ∃ pc ∈ (runMiddle c i arg2 harg2 arg3 harg3 arg4 harg4 arg5 harg5 hf hl x0 x1 xa).2.1, y ∈ pc.1.set :=
  View.cover_of_tiledL (runMiddle c i arg2 harg2 arg3 harg3 arg4 harg4 arg5 harg5 hf hl x0 x1 xa).2.1 S512x64.size (by sl_kernel_rfl) y
theorem accCover_last (hf : ¬isFirst i) (hl : isLast i) (x0 : Vec F S512x4096 .f32) (x1 : Vec F S4096x64 .f32) (xa : Vec F S512x64 .f32) (y : S512x64.Idx) :
    ∃ pc ∈ (runLast c i arg2 harg2 arg3 harg3 arg4 harg4 arg5 harg5 hf hl x0 x1 xa).2.1, y ∈ pc.1.set :=
  View.cover_of_tiledL (runLast c i arg2 harg2 arg3 harg3 arg4 harg4 arg5 harg5 hf hl x0 x1 xa).2.1 S512x64.size (by sl_kernel_rfl) y
/-- In the last case the output's piece tiles its block. -/
theorem outCover_last (hf : ¬isFirst i) (hl : isLast i) (x0 : Vec F S512x4096 .f32) (x1 : Vec F S4096x64 .f32) (xa : Vec F S512x64 .f32) (y : S512x64.Idx) :
    ∃ pc ∈ (runLast c i arg2 harg2 arg3 harg3 arg4 harg4 arg5 harg5 hf hl x0 x1 xa).1, y ∈ pc.1.set :=
  View.cover_of_tiledL (runLast c i arg2 harg2 arg3 harg3 arg4 harg4 arg5 harg5 hf hl x0 x1 xa).1 S512x64.size (by sl_kernel_rfl) y

/-- What each case leaves in the accumulator: its pieces read back (over contents that do not matter: they cover). -/
def accFirst (hf : isFirst i) (hl : ¬isLast i) (x0 : Vec F S512x4096 .f32) (x1 : Vec F S4096x64 .f32) : Vec F S512x64 .f32 :=
  accV.read (Elt F) (accV.writes (Elt F) accV.junk (runFirst c i arg2 harg2 arg3 harg3 arg4 harg4 arg5 harg5 hf hl x0 x1).2.1)
def accMiddle (hf : ¬isFirst i) (hl : ¬isLast i) (x0 : Vec F S512x4096 .f32) (x1 : Vec F S4096x64 .f32) (xa : Vec F S512x64 .f32) : Vec F S512x64 .f32 :=
  accV.read (Elt F) (accV.writes (Elt F) accV.junk (runMiddle c i arg2 harg2 arg3 harg3 arg4 harg4 arg5 harg5 hf hl x0 x1 xa).2.1)
def accLast (hf : ¬isFirst i) (hl : isLast i) (x0 : Vec F S512x4096 .f32) (x1 : Vec F S4096x64 .f32) (xa : Vec F S512x64 .f32) : Vec F S512x64 .f32 :=
  accV.read (Elt F) (accV.writes (Elt F) accV.junk (runLast c i arg2 harg2 arg3 harg3 arg4 harg4 arg5 harg5 hf hl x0 x1 xa).2.1)
/-- What the last case leaves in the output's staging buffer. -/
def outLast (hf : ¬isFirst i) (hl : isLast i) (x0 : Vec F S512x4096 .f32) (x1 : Vec F S4096x64 .f32) (xa : Vec F S512x64 .f32) : Vec F S512x64 .f32 :=
  outV.read (Elt F) (outV.writes (Elt F) outV.junk (runLast c i arg2 harg2 arg3 harg3 arg4 harg4 arg5 harg5 hf hl x0 x1 xa).1)
/-- Where nothing is stored into the output's staging buffer its contents are not consulted (the window is idle and
    is not written back): a placeholder. -/
def outIdle : Vec F S512x64 .f32 := outV.read (Elt F) outV.junk

end Cases

/-! ## The accumulation over the grid -/

/-- What a point of each case leaves — the output's staging buffer, then the accumulator — from the point's operand
    blocks and what the point before left in the accumulator. -/
def firstPair (c : Dev nD) (t : Fin cfg0.N) (h0 : t.val % 4 = 0) : Vec F S512x64 .f32 × Vec F S512x64 .f32 :=
  (outIdle, accFirst c (grid0.coords t) (stLhs t) (stLhs_whole t) (stRhs t) (stRhs_whole t) (stOut t) (stOut_whole t) accM (Memref.isWhole_whole _) ((isFirst_iff t).mpr h0) (fun h => by have := (isLast_iff t).mp h; omega) (iblk m c 0 t) (iblk m c 1 t))
def middlePair (c : Dev nD) (t : Fin cfg0.N) (h0 : ¬t.val % 4 = 0) (h3 : ¬t.val % 4 = 3) (xa : Vec F S512x64 .f32) : Vec F S512x64 .f32 × Vec F S512x64 .f32 :=
  (outIdle, accMiddle c (grid0.coords t) (stLhs t) (stLhs_whole t) (stRhs t) (stRhs_whole t) (stOut t) (stOut_whole t) accM (Memref.isWhole_whole _) (fun h => h0 ((isFirst_iff t).mp h)) (fun h => h3 ((isLast_iff t).mp h)) (iblk m c 0 t) (iblk m c 1 t) xa)
def lastPair (c : Dev nD) (t : Fin cfg0.N) (h0 : ¬t.val % 4 = 0) (h3 : t.val % 4 = 3) (xa : Vec F S512x64 .f32) : Vec F S512x64 .f32 × Vec F S512x64 .f32 :=
  (outLast c (grid0.coords t) (stLhs t) (stLhs_whole t) (stRhs t) (stRhs_whole t) (stOut t) (stOut_whole t) accM (Memref.isWhole_whole _) (fun h => h0 ((isFirst_iff t).mp h)) ((isLast_iff t).mpr h3) (iblk m c 0 t) (iblk m c 1 t) xa,
   accLast c (grid0.coords t) (stLhs t) (stLhs_whole t) (stRhs t) (stRhs_whole t) (stOut t) (stOut_whole t) accM (Memref.isWhole_whole _) (fun h => h0 ((isFirst_iff t).mp h)) ((isLast_iff t).mpr h3) (iblk m c 0 t) (iblk m c 1 t) xa)

/-- THE ACCUMULATION: what the output's staging buffer and the accumulator hold after the body at position n. -/
def stepAt (c : Dev nD) : (n : ℕ) → n < cfg0.N → Vec F S512x64 .f32 × Vec F S512x64 .f32
  | 0, hn => firstPair m c ⟨0, hn⟩ (Nat.zero_mod 4)
  | n + 1, hn =>
    if h0 : (n + 1) % 4 = 0 then firstPair m c ⟨n + 1, hn⟩ h0
    else if h3 : (n + 1) % 4 = 3 then lastPair m c ⟨n + 1, hn⟩ h0 h3 (stepAt c n (Nat.lt_of_succ_lt hn)).2
    else middlePair m c ⟨n + 1, hn⟩ h0 h3 (stepAt c n (Nat.lt_of_succ_lt hn)).2

theorem stepAt_first (c : Dev nD) (t : Fin cfg0.N) (h0 : t.val % 4 = 0) : stepAt m c t.val t.isLt = firstPair m c t h0 := by
  obtain ⟨n, hn⟩ := t
  cases n with
  | zero => exact rfl
  | succ n => exact (dif_pos h0).trans rfl

theorem stepAt_middle (c : Dev nD) (t : Fin cfg0.N) (h0 : ¬t.val % 4 = 0) (h3 : ¬t.val % 4 = 3) :
    stepAt m c t.val t.isLt = middlePair m c t h0 h3 (stepAt m c (t.val - 1) (Nat.lt_of_le_of_lt (Nat.sub_le _ _) t.isLt)).2 := by
  obtain ⟨n, hn⟩ := t
  cases n with
  | zero => exact absurd (Nat.zero_mod 4) h0
  | succ n => exact (dif_neg h0).trans ((dif_neg h3).trans rfl)

theorem stepAt_last (c : Dev nD) (t : Fin cfg0.N) (h0 : ¬t.val % 4 = 0) (h3 : t.val % 4 = 3) :
    stepAt m c t.val t.isLt = lastPair m c t h0 h3 (stepAt m c (t.val - 1) (Nat.lt_of_le_of_lt (Nat.sub_le _ _) t.isLt)).2 := by
  obtain ⟨n, hn⟩ := t
  cases n with
  | zero => exact absurd (Nat.zero_mod 4) h0
  | succ n => exact (dif_neg h0).trans ((dif_pos h3).trans rfl)

/-! ## The region's invariant -/

/-- Before position n: at the region's entry what the launch hands over (the accumulator at anything); afterwards the
    accumulator at what the point before left, and the generator register at some state. -/
def inv (c : Dev nD) : (n : ℕ) → n ≤ cfg0.N → sProp 𝕄
  | 0, _ => Pipeline.ΦA spec0 c
  | n + 1, hn => iprop(iprop(owns (c : Thread nD τ) accM fullShare ((stepAt m c n hn).2)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) accM fullShare ((stepAt m c n hn).2)) ∗ (∃ r, prngReg c r)) := rfl

theorem inv_pos (c : Dev nD) (n : ℕ) (h : n ≤ cfg0.N) (hz : n ≠ 0) :
    inv m c n h = iprop(iprop(owns (c : Thread nD τ) accM fullShare ((stepAt m c (n - 1) (by omega)).2)) ∗ (∃ r, prngReg c r)) := by
  cases n with
  | zero => exact absurd rfl hz
  | succ n => rfl

/-! ## The proof data of the pipeline -/

/-- The arrays as the region finds them; after the body at point t each operand's buffer at its block and the
    output's at `stepAt`; the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stepAt m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after_lhs (c : Dev nD) (t : Fin cfg0.N) : (dats m 0 c).after 0 t = iblk m c 0 t := by dsimp only [dats]
theorem after_rhs (c : Dev nD) (t : Fin cfg0.N) : (dats m 0 c).after 1 t = iblk m c 1 t := by dsimp only [dats]
theorem after_out (c : Dev nD) (t : Fin cfg0.N) : (dats m 0 c).after 2 t = (stepAt m c t.val t.isLt).1 := by dsimp only [dats]

theorem lhs_before (c : Dev nD) (t : Fin cfg0.N) (d) : (dats m 0 c).before 0 t d = iblk m c 0 t :=
  lhs_before_of m (dats m 0 c) (A_eq m c 0) (after_lhs m c) t d
theorem rhs_before (c : Dev nD) (t : Fin cfg0.N) (d) : (dats m 0 c).before 1 t d = iblk m c 1 t :=
  rhs_before_of m (dats m 0 c) (A_eq m c 1) (after_rhs m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stLhs t) fullShare ((dats m 0 c).before 0 t d))
    ∗ (∃ d, owns (c : Thread nD τ) (stRhs t) fullShare ((dats m 0 c).before 1 t d))
    ∗ (∃ d, owns (c : Thread nD τ) (stOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the operands' buffers hold their blocks; the closed forms say which case the point is
    in; the invariant hands over the accumulator at what the point before left (at anything at the region's
    entry) and takes it back at this point's contents, the case's pieces covering it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [lhs_before, rhs_before]
  rw [show (dats m 0 c).owesAt () t.succ = (dats m 0 c).owesAt () t.castSucc from rfl]
  rw [show (dats m 0 c).Φ t.succ = inv m c (t.val + 1) t.isLt from rfl, inv_succ]
  have hN : t.val < 128 := lt_of_lt_of_eq t.isLt (show cfg0.N = 128 from N_0)
  rw [show (dats m 0 c).leavesExact 0 t = owns (c : Thread nD τ) (stLhs t) fullShare ((dats m 0 c).after 0 t) from by
    unfold Dat.leavesExact; rw [lhs_live t], after_lhs]
  rw [show (dats m 0 c).leavesExact 1 t = owns (c : Thread nD τ) (stRhs t) fullShare ((dats m 0 c).after 1 t) from by
    unfold Dat.leavesExact; rw [rhs_live t], after_rhs]
  by_cases h0 : t.val % 4 = 0
  · have hf : isFirst (grid0.coords t) := (isFirst_iff t).mpr h0
    have hl : ¬isLast (grid0.coords t) := fun h => by have := (isLast_iff t).mp h; omega
    rw [Dat.leavesExact_idle (dats m 0 c) 2 t (out_idle t hl) (out_kept t hl)]
    rw [stepAt_first m c t h0]
    unfold firstPair accFirst; (try dsimp only)
    by_cases hz : t.val = 0
    · rw [inv_castSucc m c t, inv_zero m c _ _ hz, launchInv_eq]
      iintro ⟨⟨HA, Hg⟩, Ho, ⟨%d0, H0⟩, ⟨%d1, H1⟩, ⟨%d2, H2⟩⟩
      iapply ((runFirst c (grid0.coords t) _ _ _ _ _ _ _ _ hf hl (iblk m c 0 t) (iblk m c 1 t)).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hg]
      · isplitl [HA]
        · unfold owns; iexists _; isplitr
          swap; · iexact HA
          ipureintro; exact View.read_writes_of_cover _ _ _ _ _ (accCover_first c _ _ _ _ _ _ _ _ _ _ _ _ _)
        iexact Hg
      isplitl [Ho]; · iexact Ho
      isplitl [H0]; · iexact H0
      isplitl [H1]; · iexact H1
      iexists _; iexact H2
    · rw [inv_castSucc m c t, inv_pos m c _ _ hz]
      iintro ⟨⟨HA, Hg⟩, Ho, ⟨%d0, H0⟩, ⟨%d1, H1⟩, ⟨%d2, H2⟩⟩
      iapply ((runFirst c (grid0.coords t) _ _ _ _ _ _ _ _ hf hl (iblk m c 0 t) (iblk m c 1 t)).2.2 _ Set.univ _)
      isplitl [H0]; · iexact H0
      isplitl [H1]; · iexact H1
      isplitl [H2]; · iexact H2
      isplitl [HA]; · iexists _; iexact HA
      iintro ⟨H0, H1, H2, ⟨%ea, HA⟩⟩
      isplitl [HA Hg]
      · isplitl [HA]
        · unfold owns; iexists _; isplitr
          swap; · iexact HA
          ipureintro; exact View.read_writes_of_cover _ _ _ _ _ (accCover_first c _ _ _ _ _ _ _ _ _ _ _ _ _)
        iexact Hg
      isplitl [Ho]; · iexact Ho
      isplitl [H0]; · iexact H0
      isplitl [H1]; · iexact H1
      iexists _; iexact H2
  · have hf : ¬isFirst (grid0.coords t) := fun h => h0 ((isFirst_iff t).mp h)
    have hz : t.val ≠ 0 := fun h => h0 (by rw [h])
    by_cases h3 : t.val % 4 = 3
    · have hl : isLast (grid0.coords t) := (isLast_iff t).mpr h3
      rw [show (dats m 0 c).leavesExact 2 t = owns (c : Thread nD τ) (stOut t) fullShare ((dats m 0 c).after 2 t) from by
        unfold Dat.leavesExact; rw [out_live t hl], after_out]
      rw [stepAt_last m c t h0 h3]
      unfold lastPair outLast accLast; (try dsimp only)
      rw [inv_castSucc m c t, inv_pos m c _ _ hz]
      iintro ⟨⟨HA, Hg⟩, Ho, ⟨%d0, H0⟩, ⟨%d1, H1⟩, ⟨%d2, H2⟩⟩
      iapply ((runLast c (grid0.coords t) _ _ _ _ _ _ _ _ hf hl (iblk m c 0 t) (iblk m c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hg]
      · isplitl [HA]
        · unfold owns; iexists _; isplitr
          swap; · iexact HA
          ipureintro; exact View.read_writes_of_cover _ _ _ _ _ (accCover_last c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last c _ _ _ _ _ _ _ _ _ _ _ _ _ _)
    · have hl : ¬isLast (grid0.coords t) := fun h => h3 ((isLast_iff t).mp h)
      rw [Dat.leavesExact_idle (dats m 0 c) 2 t (out_idle t hl) (out_kept t hl)]
      rw [stepAt_middle m c t h0 h3]
      unfold middlePair accMiddle; (try dsimp only)
      rw [inv_castSucc m c t, inv_pos m c _ _ hz]
      iintro ⟨⟨HA, Hg⟩, Ho, ⟨%d0, H0⟩, ⟨%d1, H1⟩, ⟨%d2, H2⟩⟩
      iapply ((runMiddle c (grid0.coords t) _ _ _ _ _ _ _ _ hf hl (iblk m c 0 t) (iblk m c 1 t) _).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hg]
      · isplitl [HA]
        · unfold owns; iexists _; isplitr
          swap; · iexact HA
          ipureintro; exact View.read_writes_of_cover _ _ _ _ _ (accCover_middle c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After any point the invariant gives the launch's form back: the accumulator's contents are forgotten. -/
theorem inv_forget (c : Dev nD) (t : Fin (cfg0.N + 1)) (ht : t.val ≠ 0) : (dats m 0 c).Φ t ⊢ Pipeline.ΦA spec0 c := by
  rw [show (dats m 0 c).Φ t = inv m c t.val (Nat.le_of_lt_succ t.isLt) from rfl, inv_pos m c _ _ ht, launchInv_eq]
  iintro ⟨HA, Hg⟩
  isplitl [HA]
  · iexists _; iexact HA
  iexact Hg

theorem inv_out (c : Dev nD) : (dats m 0 c).Φ (Fin.last cfg0.N) ⊢ Pipeline.ΦA spec0 c :=
  inv_forget m c _ (by rw [Fin.val_last]; have : cfg0.N = 128 := N_0; omega)

/-! ## The run and the frame -/

set_option maxHeartbeats 8000000 in
set_option backward.isDefEq.respectTransparency.types false in
/-- From any memory with zero counters every weakly fair execution of @main terminates, and every final state has
    each array of the pipeline at what the library computes from the proof data and every other unscoped buffer as
    the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := tail_sub) (hfresh := tail_fresh) (hkeep := tail_keeps)
    (hmain := hmain m Variants.none) (hA := A_eq m) (hin := inv_in m) (hout := inv_out m)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Region

end
-- ==== Proof.KernelIdealCaseValues.lean ====
/-
  What each case of the body leaves, as a value. The accumulator is stored whole, so what it holds after the body is
  the payload of its last store: in the MIDDLE and LAST cases its former contents plus the product of the two operand
  blocks, in the FIRST case the zero splat plus that product (the body reads back the zero splat it has just stored).
  In the LAST case the output's staging buffer receives a copy of the accumulator's new contents. The stored pieces
  the three runs found are read back here through the skeleton's payload names; the arithmetic inside a payload is not
  opened. Generic in the float instance.
-/
import proofs.«120956_j29738353557516_1_alg».proof.Proof.KernelIdealFrame
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem origin2 : (![0, 0] : Fin 2 → Nat) = fun _ => 0 := funext fun a => by fin_cases a <;> rfl

section
variable (c : Dev nD) (i : grid0.Coords) (arg2 : Memref sig .tc .vmem S512x4096 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S512x64 .f32) (harg5 : arg5.IsWhole)

/-- A middle point adds the product of its two blocks onto what the accumulator held. -/
theorem accMiddle_eq (hf : ¬isFirst i) (hl : ¬isLast i) (x0 : Vec F S512x4096 .f32) (x1 : Vec F S4096x64 .f32) (xa : Vec F S512x64 .f32) :
    accMiddle c i arg2 harg2 arg3 harg3 arg4 harg4 arg5 harg5 hf hl x0 x1 xa = k0_pay2 x0 x1 xa := by
  unfold accMiddle
  rw [View.read_writes_eq_canon _ _ _ (accCover_middle c i arg2 harg2 arg3 harg3 arg4 harg4 arg5 harg5 hf hl x0 x1 xa)]
  unfold runMiddle
  dsimp only
  try sl_unfold_words
  rw [View.canon_unit_zero origin2]
  simp only [View.readAt_eq_ld, harg2.read_unread, harg3.read_unread, harg5.read_unread,
    View.ld_unit_zero (S := S512x4096) origin2, View.ld_unit_zero (S := S4096x64) origin2, View.ld_unit_zero (S := S512x64) origin2]

/-- So does the last point, -/
theorem accLast_eq (hf : ¬isFirst i) (hl : isLast i) (x0 : Vec F S512x4096 .f32) (x1 : Vec F S4096x64 .f32) (xa : Vec F S512x64 .f32) :
    accLast c i arg2 harg2 arg3 harg3 arg4 harg4 arg5 harg5 hf hl x0 x1 xa = k0_pay2 x0 x1 xa := by
  unfold accLast
  rw [View.read_writes_eq_canon _ _ _ (accCover_last c i arg2 harg2 arg3 harg3 arg4 harg4 arg5 harg5 hf hl x0 x1 xa)]
  unfold runLast
  dsimp only
  try sl_unfold_words
  rw [View.canon_unit_zero origin2]
  simp only [View.readAt_eq_ld, harg2.read_unread, harg3.read_unread, harg5.read_unread,
    View.ld_unit_zero (S := S512x4096) origin2, View.ld_unit_zero (S := S4096x64) origin2, View.ld_unit_zero (S := S512x64) origin2]

/-- which then copies the accumulator's new contents into the output's staging buffer. -/
theorem outLast_eq (hf : ¬isFirst i) (hl : isLast i) (x0 : Vec F S512x4096 .f32) (x1 : Vec F S4096x64 .f32) (xa : Vec F S512x64 .f32) :
    outLast c i arg2 harg2 arg3 harg3 arg4 harg4 arg5 harg5 hf hl x0 x1 xa = k0_pay2 x0 x1 xa := by
  unfold outLast
  rw [View.read_writes_eq_canon _ _ _ (outCover_last c i arg2 harg2 arg3 harg3 arg4 harg4 arg5 harg5 hf hl x0 x1 xa)]
  unfold runLast
  dsimp only
  try sl_unfold_words
  rw [View.canon_unit_zero origin2, View.readCov_unit_zero (S := S512x64) _ origin2]
  simp only [View.readAt_eq_ld, harg2.read_unread, harg3.read_unread, harg5.read_unread,
    View.ld_unit_zero (S := S512x4096) origin2, View.ld_unit_zero (S := S4096x64) origin2, View.ld_unit_zero (S := S512x64) origin2]

/-- The first point clears the accumulator and adds the product of its two blocks onto the zero splat it reads back. -/
theorem accFirst_eq (hf : isFirst i) (hl : ¬isLast i) (x0 : Vec F S512x4096 .f32) (x1 : Vec F S4096x64 .f32) :
    accFirst c i arg2 harg2 arg3 harg3 arg4 harg4 arg5 harg5 hf hl x0 x1 = k0_pay2 x0 x1 (k0_pay1 (F := F)) := by
  unfold accFirst
  rw [View.read_writes_eq_canon _ _ _ (accCover_first c i arg2 harg2 arg3 harg3 arg4 harg4 arg5 harg5 hf hl x0 x1)]
  unfold runFirst
  dsimp only
  try sl_unfold_words
  rw [View.canon_cons_unit_zero (S := S512x64) origin2, View.readCov_unit_zero (S := S512x64) _ origin2]
  simp only [View.readAt_eq_ld, harg2.read_unread, harg3.read_unread,
    View.ld_unit_zero (S := S512x4096) origin2, View.ld_unit_zero (S := S4096x64) origin2, View.ld_unit_zero (S := S512x64) origin2]

end

end Cert.KernelIdeal.Region

end
-- ==== Proof.KernelIdealBlocks.lean ====
/-
  Which entries of the operands a grid point sees. Point t of the 32 · 4 grid is at row block t / 4 and contraction
  block t % 4; the left operand's window (blocks of 512 × 4096) is at block (t / 4, t % 4), the right operand's
  (blocks of 4096 × 64) at block (t % 4, 0), the result's (blocks of 512 × 64) at block (t / 4, 0). So entry (r, j)
  of the left block is X at (512 · (t / 4) + r, 4096 · (t % 4) + j), entry (j, q) of the right block is W at
  (4096 · (t % 4) + j, q), and entry (r, q) of the result's block is the result at (512 · (t / 4) + r, q).
  Generic in the float instance.
-/
import proofs.«120956_j29738353557516_1_alg».proof.Proof.KernelIdealAround
import Idealize.ShloMosaic.Lib.ValueIdx
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The three index maps at point t, decided over the grid. -/
theorem grid_index : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0)

/-- Entry (r, j) of the left operand's block at point t is X at row 512 · (t / 4) + r, column 4096 · (t % 4) + j. -/
theorem lhs_block_apply (c : Dev nD) (t : Fin cfg0.N) (r : Fin 512) (j : Fin 4096) (P K : Fin 16384)
    (hP : P.val = t.val / 4 * 512 + r.val) (hK : K.val = t.val % 4 * 4096 + j.val) :
    (iblk m c 0 t : Vec F S512x4096 .f32) (ix2 r j) = (V m c main_arg1 : S16384x16384.Idx → Elt F .f32) (ix2 P K) := by
  obtain ⟨e0, e1, -⟩ := grid_index t
  unfold iblk
  rw [View.read_apply]
  show V m c main_arg1 _ = V m c main_arg1 _
  refine congrArg _ ?_
  funext a
  apply Fin.ext
  match a with
  | ⟨0, _⟩ => show win0_0.index t (0 : Fin 2) * 512 + 1 * r.val = P.val; rw [e0, hP]; omega
  | ⟨1, _⟩ => show win0_0.index t (1 : Fin 2) * 4096 + 1 * j.val = K.val; rw [e1, hK]; omega

/-- Entry (j, q) of the right operand's block at point t is W at row 4096 · (t % 4) + j, column q. -/
theorem rhs_block_apply (c : Dev nD) (t : Fin cfg0.N) (j : Fin 4096) (q : Fin 64) (K : Fin 16384)
    (hK : K.val = t.val % 4 * 4096 + j.val) :
    (iblk m c 1 t : Vec F S4096x64 .f32) (ix2 j q) = (V m c main_arg3 : S16384x64.Idx → Elt F .f32) (ix2 K q) := by
  obtain ⟨-, -, e2, e3, -⟩ := grid_index t
  unfold iblk
  rw [View.read_apply]
  show V m c main_arg3 _ = V m c main_arg3 _
  refine congrArg _ ?_
  funext a
  apply Fin.ext
  match a with
  | ⟨0, _⟩ => show win0_1.index t (0 : Fin 2) * 4096 + 1 * j.val = K.val; rw [e2, hK]; omega
  | ⟨1, _⟩ => show win0_1.index t (1 : Fin 2) * 64 + 1 * q.val = q.val; rw [e3]; omega

/-- Entry (r, q) of the result's block at point t sits in the result array at row 512 · (t / 4) + r, column q. -/
theorem out_block_emb (t : Fin cfg0.N) (r : Fin 512) (q : Fin 64) (P : Fin 16384) (hP : P.val = t.val / 4 * 512 + r.val) :
    (((cfg0.win 2).blk t).view.emb (ix2 r q) : S16384x64.Idx) = ix2 P q := by
  obtain ⟨-, -, -, -, e4, e5⟩ := grid_index t
  funext a
  apply Fin.ext
  match a with
  | ⟨0, _⟩ => show win0_2.index t (0 : Fin 2) * 512 + 1 * r.val = P.val; rw [e4, hP]; omega
  | ⟨1, _⟩ => show win0_2.index t (1 : Fin 2) * 64 + 1 * q.val = q.val; rw [e5]; omega

end Cert.KernelIdeal.Region

end
-- ==== Proof.LibERealSums.lean ====
/-
  Finite sums over the extended reals: real-valued terms, and sums read block by block.

  Four general facts, none about a particular program.

  1. The inclusion of the reals in the extended reals commutes with finite sums.
  2. "Is a real number" (the value is the image of some real) is closed under +, *, finite sums, the logistic
     function, the cosine and the quotient by a nonzero real. These closure facts are what lets a law of the real field
     (distributivity) be used on extended reals, where it fails at the infinities.
  3. A sum over N = m * n consecutive indices is the sum over m blocks of the sums over the n indices of each block;
     this holds in every additive commutative monoid, the extended reals included, with no finiteness assumption.
  4. Moving a scalar out of a product with a matrix column: for reals s, v d, W d, b,
       sum_d (s + v d) * W d + b = sum_d v d * W d + (b + s * sum_d W d),
     stated on the images in the extended reals.
-/
import Idealize.ShloMosaic.PureOps.Ideal
import Mathlib.Data.EReal.Inv
import Mathlib.Logic.Equiv.Fin.Basic
import Mathlib.Algebra.BigOperators.Fin

noncomputable section

namespace Cert.Lib.ERealSums

open Idealize.ShloMosaic

/-! ## The coercion of a finite sum -/

/-- The image in the extended reals of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum {ι : Type*} [Fintype ι] (f : ι → ℝ) : ((∑ i, f i : ℝ) : EReal) = ∑ i, (f i : EReal) :=
  coe_finset_sum Finset.univ f

/-! ## Real-valued extended reals -/

/-- An extended real that is (the image of) a real number. -/
def IsReal (x : EReal) : Prop := ∃ y : ℝ, x = (y : EReal)

theorem isReal_coe (y : ℝ) : IsReal (y : EReal) := ⟨y, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- A finite sum of real-valued terms is real-valued. -/
theorem isReal_finset_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The same over a whole finite type. -/
theorem isReal_sum {ι : Type*} [Fintype ι] (f : ι → EReal) (h : ∀ i, IsReal (f i)) : IsReal (∑ i, f i) :=
  isReal_finset_sum Finset.univ f fun i _ => h i

/-- The logistic function of a real is a real. -/
theorem IsReal.logistic {x : EReal} (hx : IsReal x) : IsReal (Ideal.logistic x) := by
  obtain ⟨a, rfl⟩ := hx
  exact ⟨_, Ideal.logistic_coe a⟩

/-- The cosine of a real is a real. -/
theorem IsReal.cos {x : EReal} (hx : IsReal x) : IsReal (Ideal.cos x) := by
  obtain ⟨a, rfl⟩ := hx
  exact ⟨_, Ideal.cos_coe a⟩

/-- The quotient of a real by a nonzero real is a real. -/
theorem IsReal.div_coe {x : EReal} (hx : IsReal x) {y : ℝ} (hy : y ≠ 0) : IsReal (Ideal.div x (y : EReal)) := by
  rw [Ideal.div_coe hy]
  exact hx.mul (isReal_coe _)

/-! ## A sum read block by block -/

/-- A sum over `N = m * n` indices is the sum over `m` blocks of the sum over the `n` indices of a block, when
    `g t p` is index `t * n + p`. Holds in any additive commutative monoid. -/
theorem sum_blocks {M : Type*} [AddCommMonoid M] {N : ℕ} (m n : ℕ) (h : m * n = N) (f : Fin N → M)
    (g : Fin m → Fin n → Fin N) (hg : ∀ t p, (g t p).val = t.val * n + p.val) :
    ∑ e : Fin N, f e = ∑ t : Fin m, ∑ p : Fin n, f (g t p) := by
  subst h
  rw [← Equiv.sum_comp finProdFinEquiv f, Fintype.sum_prod_type]
  refine Finset.sum_congr rfl fun t _ => Finset.sum_congr rfl fun p _ => congrArg f (Fin.ext ?_)
  rw [hg t p]
  show p.val + n * t.val = t.val * n + p.val
  rw [Nat.mul_comm, Nat.add_comm]

/-- The blocked sum with the two inner sums exchanged: a family `f e d` summed over all `e` and a lane `d` is the
    sum over blocks and lanes of the per-block partial sums. -/
theorem sum_blocks_comm {M : Type*} [AddCommMonoid M] {N L : ℕ} (m n : ℕ) (h : m * n = N) (f : Fin N → Fin L → M)
    (g : Fin m → Fin n → Fin N) (hg : ∀ t p, (g t p).val = t.val * n + p.val) :
    ∑ t : Fin m, ∑ d : Fin L, ∑ p : Fin n, f (g t p) d = ∑ e : Fin N, ∑ d : Fin L, f e d := by
  rw [sum_blocks m n h (fun e => ∑ d : Fin L, f e d) g hg]
  exact Finset.sum_congr rfl fun t _ => Finset.sum_comm

/-! ## A scalar moved from the row into the bias -/

/-- For reals: adding `s` to every entry of a row before the product with a matrix column is adding `s` times
    the column's sum to the bias. False at the infinities of the extended reals, hence stated for images of reals. -/
theorem sum_add_mul_coe {ι : Type*} [Fintype ι] (s : ℝ) (v W : ι → ℝ) (b : ℝ) :
    (∑ d, ((s : EReal) + (v d : EReal)) * (W d : EReal)) + (b : EReal)
      = (∑ d, (v d : EReal) * (W d : EReal)) + ((b : EReal) + (s : EReal) * ∑ d, (W d : EReal)) := by
  have hL : (∑ d, ((s : EReal) + (v d : EReal)) * (W d : EReal)) = ((∑ d, (s + v d) * W d : ℝ) : EReal) := by
    rw [coe_sum]
    exact Finset.sum_congr rfl fun d _ => by rw [EReal.coe_mul, EReal.coe_add]
  have hR : (∑ d, (v d : EReal) * (W d : EReal)) = ((∑ d, v d * W d : ℝ) : EReal) := by
    rw [coe_sum]
    exact Finset.sum_congr rfl fun d _ => by rw [EReal.coe_mul]
  rw [hL, hR, ← coe_sum, ← EReal.coe_mul, ← EReal.coe_add, ← EReal.coe_add, ← EReal.coe_add]
  congr 1
  simp only [add_mul, Finset.sum_add_distrib, ← Finset.mul_sum]
  ring

end Cert.Lib.ERealSums

end
-- ==== Proof.BlockedSum.lean ====
/-
  A matrix product accumulated over four blocks of the contraction axis is the whole product.

  Entry (p, q) of X · W, for X of 16384 × 16384 and W of 16384 × 64 extended reals, is the sum over k < 16384 of
  X (p, k) · W (k, q). Cut the contraction axis into four consecutive blocks of 4096 columns: block b holds the columns
  4096·b + j, j < 4096, and contributes part b = the sum over j of X (p, 4096·b + j) · W (4096·b + j, q). An accumulator that
  starts at zero and adds part 0, part 1, part 2, part 3 on the right, in that order, ends at the whole sum: a sum over
  4 · 4096 consecutive indices is the sum over the blocks of the sums within a block, and adding the four block sums
  left to right from zero is the sum over the four blocks. Only the additive commutative monoid structure of the
  extended reals is used: no finiteness, no distributivity, no cancellation.
-/
import Idealize.ShloMosaic.PureOps.Ideal
import Idealize.ShloMosaic.Lib.ValueIdx
import Mathlib.Algebra.BigOperators.Fin
import proofs.«120956_j29738353557516_1_alg».proof.Proof.LibERealSums

noncomputable section

namespace Cert.BlockedSum

open Idealize.ShloMosaic Idealize.ShloMosaic.ValueIdx

/-- column 4096·b + j of the contraction axis -/
def col (b : Fin 4) (j : Fin 4096) : Fin 16384 :=
  ⟨b.val * 4096 + j.val, by have := b.isLt; have := j.isLt; omega⟩

theorem col_val (b : Fin 4) (j : Fin 4096) : (col b j).val = b.val * 4096 + j.val := rfl

/-- the contribution of K block b to entry (p, q) -/
def part (X : (⟨2, ![16384, 16384]⟩ : Shape).Idx → EReal) (W : (⟨2, ![16384, 64]⟩ : Shape).Idx → EReal)
    (p : Fin 16384) (q : Fin 64) (b : Fin 4) : EReal :=
  ∑ j : Fin 4096, X (ix2 p (col b j)) * W (ix2 (col b j) q)

/-- the accumulator after the first n blocks, starting from zero, adding on the right as the kernel does -/
def acc (X : (⟨2, ![16384, 16384]⟩ : Shape).Idx → EReal) (W : (⟨2, ![16384, 64]⟩ : Shape).Idx → EReal)
    (p : Fin 16384) (q : Fin 64) : (n : ℕ) → n ≤ 4 → EReal
  | 0, _ => 0
  | n + 1, h => acc X W p q n (Nat.le_of_succ_le h) + part X W p q ⟨n, h⟩

variable (X : (⟨2, ![16384, 16384]⟩ : Shape).Idx → EReal) (W : (⟨2, ![16384, 64]⟩ : Shape).Idx → EReal)
  (p : Fin 16384) (q : Fin 64)

/-- Before any block the accumulator is zero. -/
theorem acc_zero (h : 0 ≤ 4) : acc X W p q 0 h = 0 := rfl

/-- Block n adds its contribution on the right. -/
theorem acc_succ (n : ℕ) (h : n < 4) :
    acc X W p q (n + 1) h = acc X W p q n (Nat.le_of_lt h) + part X W p q ⟨n, h⟩ := rfl

/-- The sum over the whole contraction axis is the sum of the four blocks' contributions. -/
theorem sum_eq_sum_part :
    ∑ k : Fin 16384, X (ix2 p k) * W (ix2 k q) = ∑ b : Fin 4, part X W p q b :=
  Cert.Lib.ERealSums.sum_blocks 4 4096 (by norm_num) (fun k => X (ix2 p k) * W (ix2 k q)) col (fun _ _ => rfl)

/-- After the four blocks the accumulator is the whole sum. -/
theorem acc_four : acc X W p q 4 (le_refl 4) = ∑ k : Fin 16384, X (ix2 p k) * W (ix2 k q) := by
  rw [sum_eq_sum_part, Fin.sum_univ_four]
  show 0 + part X W p q ⟨0, _⟩ + part X W p q ⟨1, _⟩ + part X W p q ⟨2, _⟩ + part X W p q ⟨3, _⟩ = _
  rw [zero_add]
  rfl

end Cert.BlockedSum

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.PayloadAt.lean ====
/-
  The kernel's two stored values and the reference's product, read at one entry, at the ideal values.

  At the ideal instance floats are extended reals, a format change is the identity and every operation is exact. So:
  the value stored at the first step of the contraction is the zero splat, 0 at every entry; the value stored at every
  step is, at entry (r, q), the accumulator there plus the sum over j < 4096 of x0 (r, j) · x1 (j, q), the 512 × 4096 by
  4096 × 64 block product accumulated into zero (the two narrowings to the 16-bit format are the identity, and the cast of
  a shape to itself reads the same entry); and the reference's contraction of the left operand's axis 1 against the right
  operand's axis 0 is, at entry (p, q), the sum over k < 16384 of X (p, k) · W (k, q). For either dimension record the
  contracted shape has one axis, of the contraction's extent, and the operand indices the record names at output (p, q)
  and contraction position k are (p, k) and (k, q): each a computation on the literal record.
-/
import proofs.«120956_j29738353557516_1_alg».proof.Proof.Gen.KernelIdeal.Skeleton
import proofs.«120956_j29738353557516_1_alg».proof.Proof.Gen.ReferenceIdeal
import proofs.«120956_j29738353557516_1_alg».proof.Proof.LibPlainDot
import Idealize.ShloMosaic.PureOps.Ideal.Laws
import Idealize.ShloMosaic.Lib.ValueIdx
import Idealize.ShloMosaic.Lib.Pipeline.Value

noncomputable section

namespace Cert.PayloadAt

open Idealize.ShloMosaic Idealize.ShloMosaic.ValueIdx

/-! ## The block product's dimension record -/

section KernelDot
open Cert.KernelIdeal

/-- The block product's dimension record, at its literal shapes. -/
abbrev kD : DotDims (⟨2, ![512, 4096]⟩ : Shape) (⟨2, ![4096, 64]⟩ : Shape) (⟨2, ![512, 64]⟩ : Shape) :=
  dot_S512x4096_S4096x64_S512x64_1_0_0_1_n_n

theorem kD_rank : kD.contr.rank = 1 := rfl
theorem kD_size : kD.contr.size ⟨0, by rw [kD_rank]; exact Nat.one_pos⟩ = 4096 := rfl
theorem kD_l0 (i : (⟨2, ![512, 64]⟩ : Shape).Idx) (k : kD.contr.Idx) : (kD.lhsIdx i k 0).val = (i 0).val := rfl
theorem kD_l1 (i : (⟨2, ![512, 64]⟩ : Shape).Idx) (k : kD.contr.Idx) :
    (kD.lhsIdx i k 1).val = (k ⟨0, by rw [kD_rank]; exact Nat.one_pos⟩).val := rfl
theorem kD_r0 (i : (⟨2, ![512, 64]⟩ : Shape).Idx) (k : kD.contr.Idx) :
    (kD.rhsIdx i k 0).val = (k ⟨0, by rw [kD_rank]; exact Nat.one_pos⟩).val := rfl
theorem kD_r1 (i : (⟨2, ![512, 64]⟩ : Shape).Idx) (k : kD.contr.Idx) : (kD.rhsIdx i k 1).val = (i 1).val := rfl

end KernelDot

/-! ## The reference product's dimension record -/

section ReferenceDot
open Cert.ReferenceIdeal

/-- The reference product's dimension record, at its literal shapes. -/
abbrev rD : DotDims (⟨2, ![16384, 16384]⟩ : Shape) (⟨2, ![16384, 64]⟩ : Shape) (⟨2, ![16384, 64]⟩ : Shape) :=
  dot_S16384x16384_S16384x64_S16384x64_1_0_0_1_n_n

theorem rD_rank : rD.contr.rank = 1 := rfl
theorem rD_size : rD.contr.size ⟨0, by rw [rD_rank]; exact Nat.one_pos⟩ = 16384 := rfl
theorem rD_l0 (i : (⟨2, ![16384, 64]⟩ : Shape).Idx) (k : rD.contr.Idx) : (rD.lhsIdx i k 0).val = (i 0).val := rfl
theorem rD_l1 (i : (⟨2, ![16384, 64]⟩ : Shape).Idx) (k : rD.contr.Idx) :
    (rD.lhsIdx i k 1).val = (k ⟨0, by rw [rD_rank]; exact Nat.one_pos⟩).val := rfl
theorem rD_r0 (i : (⟨2, ![16384, 64]⟩ : Shape).Idx) (k : rD.contr.Idx) :
    (rD.rhsIdx i k 0).val = (k ⟨0, by rw [rD_rank]; exact Nat.one_pos⟩).val := rfl
theorem rD_r1 (i : (⟨2, ![16384, 64]⟩ : Shape).Idx) (k : rD.contr.Idx) : (rD.rhsIdx i k 1).val = (i 1).val := rfl

end ReferenceDot

/-! ## The two stored values -/

/-- The value stored at the first contraction step is zero at every entry. -/
theorem pay1_apply (r : Fin 512) (q : Fin 64) : Cert.KernelIdeal.Gen.k0_pay1 (F := Ideal) (ix2 r q) = 0 := by
  unfold Cert.KernelIdeal.Gen.k0_pay1
  refine (congrFun (shapeCast_self _ _) (ix2 r q)).trans ?_
  exact Ideal.ofBits_zero_f32

/-- The value stored at every contraction step is, at (r, q), the accumulator there plus the block product's entry. -/
theorem pay2_apply (x0 : Vec Ideal Cert.KernelIdeal.S512x4096 .f32) (x1 : Vec Ideal Cert.KernelIdeal.S4096x64 .f32)
    (xs : Vec Ideal Cert.KernelIdeal.S512x64 .f32) (r : Fin 512) (q : Fin 64) :
    Cert.KernelIdeal.Gen.k0_pay2 (F := Ideal) x0 x1 xs (ix2 r q)
      = xs (ix2 r q) + ∑ j : Fin 4096, x0 (ix2 r j) * x1 (ix2 j q) := by
  unfold Cert.KernelIdeal.Gen.k0_pay2
  refine (congrFun (shapeCast_self _ _) (ix2 r q)).trans ?_
  refine congrArg (fun t : EReal => xs (ix2 r q) + t) ?_
  refine (Ideal.matmul_constant_zero_apply kD none _ _ (ix2 r q)).trans ?_
  exact Cert.Lib.PlainDot.sum_contr kD kD_rank kD_size kD_l0 kD_l1 kD_r0 kD_r1 x0 x1 r q

/-! ## The reference's product -/

/-- The reference's contraction at (p, q) is the sum over the whole contraction axis. -/
theorem refdot_apply (X : FVec Ideal Cert.ReferenceIdeal.S16384x16384 .f32) (W : FVec Ideal Cert.ReferenceIdeal.S16384x64 .f32)
    (p : Fin 16384) (q : Fin 64) :
    Host.dotGeneral (F := Ideal) Cert.ReferenceIdeal.dot_S16384x16384_S16384x64_S16384x64_1_0_0_1_n_n none X W (ix2 p q)
      = ∑ k : Fin 16384, X (ix2 p k) * W (ix2 k q) :=
  Cert.Lib.PlainDot.dotGeneral_apply rD rD_rank rD_size rD_l0 rD_l1 rD_r0 rD_r1 none X W p q

end Cert.PayloadAt

end
-- ==== Proof.KernelIdealProduct.lean ====
/-
  The region's result array is the whole product X · W, at the ideal instance.

  Row p = 512 · i + r of the result lives in row block i, which the four grid points 4i, 4i + 1, 4i + 2, 4i + 3 work on,
  one contraction block of 4096 each. By induction on the point, after the body at point t the accumulator holds at
  (r, q) the partial sum over the first t % 4 + 1 contraction blocks of the products X (p, k) · W (k, q): the first point of a
  row block starts from the zero splat, every point adds its block's contribution (the matrix unit's product of the
  two blocks, accumulated from zero, is that block's sum of products), and a block's entries are entries of X and W.
  At the last point of a row block the four contributions are in, that is the whole sum over the contraction axis
  (extended-real addition is commutative and associative, whatever the summands), which is what the host's one
  contraction computes; the point copies it out and only there is the block written back. The 32 written-back blocks
  tile the result array, so the array ends at the product.
-/
import proofs.«120956_j29738353557516_1_alg».proof.Proof.KernelIdealFrame
import proofs.«120956_j29738353557516_1_alg».proof.Proof.KernelIdealCaseValues
import proofs.«120956_j29738353557516_1_alg».proof.Proof.KernelIdealBlocks
import proofs.«120956_j29738353557516_1_alg».proof.Proof.BlockedSum
import proofs.«120956_j29738353557516_1_alg».proof.Proof.PayloadAt
import Idealize.ShloMosaic.Lib.Pipeline.Value

set_option maxRecDepth 16384

noncomputable section

namespace Cert.KernelIdeal.Product

open Cert.KernelIdeal Cert.KernelIdeal.Gen Cert.KernelIdeal.Region Cert.BlockedSum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two operands as the region finds them. -/
abbrev X (c : Dev nD) : (⟨2, ![16384, 16384]⟩ : Shape).Idx → EReal := V m c main_arg1
abbrev W (c : Dev nD) : (⟨2, ![16384, 64]⟩ : Shape).Idx → EReal := V m c main_arg3

/-- The partial sums do not depend on how their length is spelt. -/
theorem acc_congr (A : (⟨2, ![16384, 16384]⟩ : Shape).Idx → EReal) (B : (⟨2, ![16384, 64]⟩ : Shape).Idx → EReal) (p : Fin 16384) (q : Fin 64)
    {k k' : ℕ} (h : k = k') (hk : k ≤ 4) (hk' : k' ≤ 4) : acc A B p q k hk = acc A B p q k' hk' := by
  subst h; rfl

/-- ONE POINT'S STEP: if the accumulator holds, at (r, q), the partial sum over the first k contraction blocks, with
    k the point's contraction block, then what the body stores holds the partial sum over the first k + 1. -/
theorem add_value (c : Dev nD) (t : Fin cfg0.N) (xa : Vec Ideal S512x64 .f32) (r : Fin 512) (q : Fin 64) (P : Fin 16384)
    (hP : P.val = t.val / 4 * 512 + r.val) (k : ℕ) (hk : k = t.val % 4) (hk4 : k < 4)
    (hxa : xa (ix2 r q) = acc (X m c) (W m c) P q k (Nat.le_of_lt hk4)) :
    k0_pay2 (F := Ideal) (iblk m c 0 t) (iblk m c 1 t) xa (ix2 r q) = acc (X m c) (W m c) P q (k + 1) hk4 := by
  refine (Cert.PayloadAt.pay2_apply _ _ xa r q).trans ?_
  rw [hxa, acc_succ (X m c) (W m c) P q k hk4]
  refine congrArg (fun s => acc (X m c) (W m c) P q k (Nat.le_of_lt hk4) + s) ?_
  unfold part
  refine Finset.sum_congr rfl fun j _ => ?_
  have hK : (col ⟨k, hk4⟩ j).val = t.val % 4 * 4096 + j.val := by
    rw [col_val]; show k * 4096 + j.val = t.val % 4 * 4096 + j.val; rw [hk]
  exact congrArg₂ (· * ·) (lhs_block_apply m c t r j P (col ⟨k, hk4⟩ j) hP hK) (rhs_block_apply m c t j q (col ⟨k, hk4⟩ j) hK)

/-- THE ACCUMULATION, read: after the body at position n the accumulator holds, at (r, q), the partial sum over the
    first n % 4 + 1 contraction blocks of row 512 · (n / 4) + r. -/
theorem acc_after (c : Dev nD) (n : ℕ) : ∀ (hn : n < cfg0.N) (r : Fin 512) (q : Fin 64) (P : Fin 16384)
    (hP : P.val = n / 4 * 512 + r.val),
    (stepAt m c n hn).2 (ix2 r q) = acc (X m c) (W m c) P q (n % 4 + 1) (by omega) := by
  induction n with
  | zero =>
    intro hn r q P hP
    rw [show stepAt m c 0 hn = firstPair m c ⟨0, hn⟩ (Nat.zero_mod 4) from rfl]
    unfold firstPair; dsimp only
    rw [accFirst_eq]
    exact add_value m c ⟨0, hn⟩ _ r q P hP 0 rfl (by omega)
      ((Cert.PayloadAt.pay1_apply r q).trans (acc_zero (X m c) (W m c) P q (by omega)).symm)
  | succ n ih =>
    intro hn r q P hP
    by_cases h0 : (n + 1) % 4 = 0
    · rw [show stepAt m c (n + 1) hn = firstPair m c ⟨n + 1, hn⟩ h0 from stepAt_first m c ⟨n + 1, hn⟩ h0]
      unfold firstPair; dsimp only
      rw [accFirst_eq]
      exact (add_value m c ⟨n + 1, hn⟩ _ r q P hP 0 h0.symm (by omega)
        ((Cert.PayloadAt.pay1_apply r q).trans (acc_zero (X m c) (W m c) P q (by omega)).symm)).trans
        (acc_congr (X m c) (W m c) P q (by omega) _ _)
    · have hxa : (stepAt m c n (Nat.lt_of_succ_lt hn)).2 (ix2 r q)
          = acc (X m c) (W m c) P q ((n + 1) % 4) (by omega) :=
        (ih (Nat.lt_of_succ_lt hn) r q P (by rw [hP]; omega)).trans (acc_congr (X m c) (W m c) P q (by omega) _ _)
      by_cases h3 : (n + 1) % 4 = 3
      · rw [show stepAt m c (n + 1) hn = lastPair m c ⟨n + 1, hn⟩ h0 h3 (stepAt m c n (Nat.lt_of_succ_lt hn)).2 from
          stepAt_last m c ⟨n + 1, hn⟩ h0 h3]
        unfold lastPair; dsimp only
        rw [accLast_eq]
        exact add_value m c ⟨n + 1, hn⟩ _ r q P hP ((n + 1) % 4) rfl (by omega) hxa
      · rw [show stepAt m c (n + 1) hn = middlePair m c ⟨n + 1, hn⟩ h0 h3 (stepAt m c n (Nat.lt_of_succ_lt hn)).2 from
          stepAt_middle m c ⟨n + 1, hn⟩ h0 h3]
        unfold middlePair; dsimp only
        rw [accMiddle_eq]
        exact add_value m c ⟨n + 1, hn⟩ _ r q P hP ((n + 1) % 4) rfl (by omega) hxa

/-- The whole product of the operands as the region finds them: the host's one contraction of them. -/
abbrev product (c : Dev nD) : Buf (Elt Ideal) ((c : Thread nD τ).loc main_v0) :=
  Host.dotGeneral (F := Ideal) (φ₁ := .f32) (φ₂ := .f32) Cert.ReferenceIdeal.dot_S16384x16384_S16384x64_S16384x64_1_0_0_1_n_n none (V m c main_arg1) (V m c main_arg3)

/-- WHAT A WRITING POINT WRITES BACK is its block of the product. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  have h0 : ¬t.val % 4 = 0 := by omega
  have hN : t.val < 128 := lt_of_lt_of_eq t.isLt (show cfg0.N = 128 from N_0)
  show (cfg0.win 2).cut (grid0.coords t) ((dats m 0 c).after 2 t) = _
  rw [after_out, stepAt_last m c t h0 h3]
  unfold lastPair; dsimp only
  rw [outLast_eq]
  funext j
  obtain ⟨r, q, rfl⟩ : ∃ (r : Fin 512) (q : Fin 64), j = ix2 r q := ⟨j 0, j 1, eq_ix2 j⟩
  rw [View.read_apply]
  show k0_pay2 (F := Ideal) (iblk m c 0 t) (iblk m c 1 t) _ (ix2 r q) = product m c (((cfg0.win 2).blk t).view.emb (ix2 r q))
  obtain ⟨P, hP⟩ : ∃ P : Fin 16384, P.val = t.val / 4 * 512 + r.val := ⟨⟨t.val / 4 * 512 + r.val, by omega⟩, rfl⟩
  rw [out_block_emb t r q P hP]
  have hprev : t.val - 1 < cfg0.N := lt_of_le_of_lt (Nat.sub_le _ _) t.isLt
  have hP' : P.val = (t.val - 1) / 4 * 512 + r.val := by rw [hP]; omega
  refine (add_value m c t _ r q P hP 3 h3.symm (by omega) ?_).trans ?_
  · exact (acc_after m c (t.val - 1) hprev r q P hP').trans (acc_congr (X m c) (W m c) P q (by omega) _ _)
  · exact (acc_four (X m c) (W m c) P q).trans (Cert.PayloadAt.refdot_apply (V m c main_arg1) (V m c main_arg3) P q).symm

/-- An entry of the result array is in point t's block iff each coordinate is in the block's range on its axis. -/
theorem mem_out_blk (t : Fin cfg0.N) (i : S16384x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v0).slice (win0_2.rect t)).set ↔ _
  rw [View.set_slice_whole, Rect.mem_set_unit]
  exact Iff.rfl

/-- THE RESULT ARRAY after the region: the product. Row p is written back by the last point of its row block, 4 · (p / 512) + 3. -/
theorem final (c : Dev nD) : (dats m 0 c).arrAt 2 cfg0.N = product m c :=
  (dats m 0 c).arrAt_eq_of_cover 2 (product m c) (flushed_eq m c) fun i => by
    have hi0 : (i 0).val < 16384 := (i 0).isLt
    have hi1 : (i 1).val < 64 := (i 1).isLt
    have hlt : (i 0).val / 512 * 4 + 3 < cfg0.N := by rw [show cfg0.N = 128 from N_0]; omega
    refine ⟨⟨(i 0).val / 512 * 4 + 3, hlt⟩, (flush0_2 _).mpr (by show ((i 0).val / 512 * 4 + 3) % 4 = 3; omega), ?_⟩
    rw [mem_out_blk]
    obtain ⟨-, -, -, -, e4, e5⟩ := grid_index ⟨(i 0).val / 512 * 4 + 3, hlt⟩
    intro a
    match a with
    | ⟨0, _⟩ =>
      show win0_2.index ⟨(i 0).val / 512 * 4 + 3, hlt⟩ (0 : Fin 2) * 512 ≤ (i 0).val ∧ (i 0).val < win0_2.index ⟨(i 0).val / 512 * 4 + 3, hlt⟩ (0 : Fin 2) * 512 + 512
      rw [e4]; show ((i 0).val / 512 * 4 + 3) / 4 * 512 ≤ (i 0).val ∧ (i 0).val < ((i 0).val / 512 * 4 + 3) / 4 * 512 + 512; omega
    | ⟨1, _⟩ =>
      show win0_2.index ⟨(i 0).val / 512 * 4 + 3, hlt⟩ (1 : Fin 2) * 64 ≤ (i 1).val ∧ (i 1).val < win0_2.index ⟨(i 0).val / 512 * 4 + 3, hlt⟩ (1 : Fin 2) * 64 + 64
      rw [e5]; omega

/-- The kernel program's run, read: the result buffer at what the ninety-seven host lines compute from the product
    and the arguments, the arguments unchanged. -/
theorem run : θ_run defs (onTc (τ := τ) (main (F := Ideal))) ⟨m, fun _ => 0, ρ⟩ (fun r => ∀ c : Dev nD,
      r.2.mem ((c.tc : Thread nD τ).loc main_v75) = Pipeline.afterTail₀ cfgs (dats m) 0 (V0 m) [hostOps1, hostOps1_1, hostOps1_2] c main_v75
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c).2 main_v75 (Pipeline.mem_restRefs_of main_v75 (by decide) (by decide)),
    ((h c).2 main_arg0 (Pipeline.mem_restRefs_of main_arg0 (by decide) (by decide))).trans (end_main_arg0 m (dats m) c),
    ((h c).1 0).trans (((dats m 0 c).arrAt_in 0 rfl _).trans ((A_eq m c 0).trans (V_arg1 m c))),
    ((h c).2 main_arg2 (Pipeline.mem_restRefs_of main_arg2 (by decide) (by decide))).trans (end_main_arg2 m (dats m) c),
    ((h c).1 1).trans (((dats m 0 c).arrAt_in 1 rfl _).trans ((A_eq m c 1).trans (V_arg3 m c))),
    ((h c).2 main_arg4 (Pipeline.mem_restRefs_of main_arg4 (by decide) (by decide))).trans (end_main_arg4 m (dats m) c),
    ((h c).2 main_arg5 (Pipeline.mem_restRefs_of main_arg5 (by decide) (by decide))).trans (end_main_arg5 m (dats m) c),
    ((h c).2 main_arg6 (Pipeline.mem_restRefs_of main_arg6 (by decide) (by decide))).trans (end_main_arg6 m (dats m) c)⟩)
    (run_main m ρ)

end Cert.KernelIdeal.Product

end
-- ==== Proof.TailAgrees.lean ====
/-
  The kernel program and the reference program differ in how they form the matrix product X · W — the kernel by a
  pipelined region, the reference by one dot-general — and then apply THE SAME ninety-seven host lines to it and to
  the five arguments the lines read (the pair table, the edge list, the two biases and the linear weights): the
  degree count and its inverse square root, the normalised aggregation over the edges and self loops, the two row
  gathers per pair and the pairwise term ½ Σ ((Σ e)² − Σ e²) plus the linear term. Each program prints those lines
  over its own signature, with its own names for the same shapes, the same dimension records and the same facts.
  This module proves that nothing else differs: started from contents that agree on the product and on the five
  arguments, the kernel's ninety-seven lines end with the result buffer at the reference's composed term.
  Generic in the float instance.
-/
import proofs.«120956_j29738353557516_1_alg».proof.Proof.KernelIdealAround
import proofs.«120956_j29738353557516_1_alg».proof.Proof.RefRunP
import Idealize.ShloMosaic.Lib.Pipeline.FrameSuffix
import Idealize.ShloMosaic.Lib.StableHlo.Run

set_option maxRecDepth 16384

noncomputable section

namespace Cert.TailAgrees

open Idealize.ShloMosaic Idealize.ShloMosaic.TcCoe Idealize.SL.Sem
open Idealize.ShloMosaic.Pipeline (Dat)

variable {F : FTy → Type} [FloatOps F]

set_option maxHeartbeats 4000000 in
/-- The ninety-seven lines, run from ANY contents `W` of the kernel's buffers that hold the reference's product in the
    region's result buffer and the reference's arguments in the five argument buffers the lines read, leave the
    kernel's result buffer at the reference's composed term.
    Each line writes one buffer of its own from buffers written before it, so the final contents of the result buffer
    unfold, line by line, into one term over `W`'s values at the six buffers no line writes; there the hypotheses
    put the reference's values, and what remains is the reference's term spelt with the kernel's names: the same
    shapes, dimension records with the same fields, and proofs. -/
theorem host_lines_agree
    (W : Valuation Cert.KernelIdeal.τ Cert.KernelIdeal.sig (Elt F))
    (m' : (ℓ : Loc Cert.ReferenceIdeal.nD Cert.ReferenceIdeal.τ Cert.ReferenceIdeal.sig) → Buf (Elt F) ℓ)
    (c : Dev Cert.KernelIdeal.nD)
    (hv0 : W (Proc.devRef .tc Cert.KernelIdeal.main_v0)
      = Host.dotGeneral (F := F) Cert.ReferenceIdeal.dot_S16384x16384_S16384x64_S16384x64_1_0_0_1_n_n none
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg3)))
    (ha0 : W (Proc.devRef .tc Cert.KernelIdeal.main_arg0) = m' ((c.tc : Thread Cert.ReferenceIdeal.nD Cert.ReferenceIdeal.τ).loc Cert.ReferenceIdeal.main_arg0))
    (ha2 : W (Proc.devRef .tc Cert.KernelIdeal.main_arg2) = m' ((c.tc : Thread Cert.ReferenceIdeal.nD Cert.ReferenceIdeal.τ).loc Cert.ReferenceIdeal.main_arg2))
    (ha4 : W (Proc.devRef .tc Cert.KernelIdeal.main_arg4) = m' ((c.tc : Thread Cert.ReferenceIdeal.nD Cert.ReferenceIdeal.τ).loc Cert.ReferenceIdeal.main_arg4))
    (ha5 : W (Proc.devRef .tc Cert.KernelIdeal.main_arg5) = m' ((c.tc : Thread Cert.ReferenceIdeal.nD Cert.ReferenceIdeal.τ).loc Cert.ReferenceIdeal.main_arg5))
    (ha6 : W (Proc.devRef .tc Cert.KernelIdeal.main_arg6) = m' ((c.tc : Thread Cert.ReferenceIdeal.nD Cert.ReferenceIdeal.τ).loc Cert.ReferenceIdeal.main_arg6)) :
    StableHlo.after ([Cert.KernelIdeal.Gen.hostOps1, Cert.KernelIdeal.Gen.hostOps1_1, Cert.KernelIdeal.Gen.hostOps1_2] : List (List (HloOp Cert.KernelIdeal.τ Cert.KernelIdeal.sig (Elt F)))).flatten
        W (Proc.devRef .tc Cert.KernelIdeal.main_v75)
      = Cert.ReferenceIdeal.ValueP.res_main_v75 (F := F) m' c := by
  -- the three stretches as one list of ninety-seven lines
  simp only [Cert.KernelIdeal.Gen.hostOps1, Cert.KernelIdeal.Gen.hostOps1_1, Cert.KernelIdeal.Gen.hostOps1_2,
    List.flatten_cons, List.flatten_nil, List.append_nil, List.cons_append, List.nil_append]
  -- the result buffer's final contents as the lines' composed term of `W`: a line's result at its own buffer is its
  -- function of its operands' contents, at any other buffer what was there
  open Idealize.ShloMosaic.StableHlo in after_results_simp
  -- the same inside the two concatenations' operand lists (the edge endpoints followed by the self loops)
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  -- the six buffers no line writes hold the reference's product and arguments
  rw [hv0, ha0, ha2, ha4, ha5, ha6]
  clear hv0 ha0 ha2 ha4 ha5 ha6 W
  -- both sides are now one term, node by node: the two programs' names for a shape unfold to the same literal, their
  -- dimension records have equal fields, and the side conditions are proofs
  unfold Cert.ReferenceIdeal.ValueP.res_main_v75
  rfl

/-- The kernel's host lines after its region against the reference's run: if the memories agree on the five arguments
    the lines read, and the region's result array ends at the reference's product X · W, then what the lines leave in
    the kernel's result buffer is the reference's result.
    The lines start from the region's exit contents — the pipeline's three arrays (X, W and the product) at the proof
    data's final arrays, every other buffer as launched —; the product's buffer is the third array, and the five
    arguments are no array of the pipeline. -/
theorem tail_agrees
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (dats : (p : Fin 1) → (c : Dev Cert.KernelIdeal.nD) → Dat Cert.KernelIdeal.τ (Elt F) Unit ℕ (UR Cert.KernelIdeal.sig Cert.KernelIdeal.nD Cert.KernelIdeal.τ) ℕ (Cert.KernelIdeal.cfgs p) c)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hx : (dats 0 c).arrAt 2 (Cert.KernelIdeal.cfgs 0).N
            = Host.dotGeneral (F := F) Cert.ReferenceIdeal.dot_S16384x16384_S16384x64_S16384x64_1_0_0_1_n_n none
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg3))) :
    Pipeline.afterTail₀ Cert.KernelIdeal.cfgs dats 0 (Cert.KernelIdeal.Region.V0 m)
        [Cert.KernelIdeal.Gen.hostOps1, Cert.KernelIdeal.Gen.hostOps1_1, Cert.KernelIdeal.Gen.hostOps1_2] c Cert.KernelIdeal.main_v75
      = Cert.ReferenceIdeal.ValueP.res_main_v75 (F := F) m' c := by
  unfold Pipeline.afterTail₀
  exact host_lines_agree _ m' c
    ((Pipeline.withArrays_arr (τ := Cert.KernelIdeal.τ) (Cert.KernelIdeal.cfgs 0).spec Cert.KernelIdeal.Gen.launch0.win.arr_inj c
        (Cert.KernelIdeal.Region.V0 m c) (fun w => (dats 0 c).arrAt w (Cert.KernelIdeal.cfgs 0).N) 2).trans hx)
    ((Pipeline.withArrays_of_ne (Cert.KernelIdeal.cfgs 0).spec c (Cert.KernelIdeal.Region.V0 m c) (fun w => (dats 0 c).arrAt w (Cert.KernelIdeal.cfgs 0).N)
        Cert.KernelIdeal.main_arg0 (by decide)).trans ((Cert.KernelIdeal.Region.V_arg0 m c).trans h0.symm))
    ((Pipeline.withArrays_of_ne (Cert.KernelIdeal.cfgs 0).spec c (Cert.KernelIdeal.Region.V0 m c) (fun w => (dats 0 c).arrAt w (Cert.KernelIdeal.cfgs 0).N)
        Cert.KernelIdeal.main_arg2 (by decide)).trans ((Cert.KernelIdeal.Region.V_arg2 m c).trans h2.symm))
    ((Pipeline.withArrays_of_ne (Cert.KernelIdeal.cfgs 0).spec c (Cert.KernelIdeal.Region.V0 m c) (fun w => (dats 0 c).arrAt w (Cert.KernelIdeal.cfgs 0).N)
        Cert.KernelIdeal.main_arg4 (by decide)).trans ((Cert.KernelIdeal.Region.V_arg4 m c).trans h4.symm))
    ((Pipeline.withArrays_of_ne (Cert.KernelIdeal.cfgs 0).spec c (Cert.KernelIdeal.Region.V0 m c) (fun w => (dats 0 c).arrAt w (Cert.KernelIdeal.cfgs 0).N)
        Cert.KernelIdeal.main_arg5 (by decide)).trans ((Cert.KernelIdeal.Region.V_arg5 m c).trans h5.symm))
    ((Pipeline.withArrays_of_ne (Cert.KernelIdeal.cfgs 0).spec c (Cert.KernelIdeal.Region.V0 m c) (fun w => (dats 0 c).arrAt w (Cert.KernelIdeal.cfgs 0).N)
        Cert.KernelIdeal.main_arg6 (by decide)).trans ((Cert.KernelIdeal.Region.V_arg6 m c).trans h6.symm))

end Cert.TailAgrees

end
-- ==== Proof.lean ====
/-
  A graph-convolution factorisation-machine forward pass: xw = X · W (a [16384,16384] · [16384,64] product), the
  symmetric-normalised aggregation of xw over the edges and self-loops, two row gathers, and the pairwise
  interaction term. The kernel program computes the product in a Pallas kernel — 512-row blocks, the contraction axis
  in four blocks of 4096 accumulated in a scratch buffer, operands rounded to bf16 on the way into the matrix unit —
  and everything after it by ninety-seven host lines; the reference computes the product by one host contraction
  and then applies the same ninety-seven lines.

  At the ideal instance (floats extended reals, operations exact, format changes the identity) the two programs
  agree: the accumulated blocks are the whole sum over the contraction axis, because extended-real addition is
  commutative and associative whatever the summands — no finiteness of the inputs is used —, and equal products
  and equal arguments go through the same host lines to equal results.

    frame_Kernel, frame_KernelIdeal   the region's 128 points by the body's three cases (first / middle / last contraction
                                      block) with the accumulator carried by the region's invariant, then the host lines,
                                      which write neither an argument nor an array the region stages;
    frame_ReferenceIdeal              the reference's straight line of host operations, read back;
    preserves_Kernel_KernelIdeal      the idealisation rewrote nothing;
    algebraic                         the region's result array is the product (accumulation over the grid, the blocks
                                      tile the array), and the common host lines carry it to the common result.
-/
import proofs.«120956_j29738353557516_1_alg».proof.Defs
import proofs.«120956_j29738353557516_1_alg».proof.Proof.Gen.Kernel
import proofs.«120956_j29738353557516_1_alg».proof.Proof.Gen.KernelIdeal
import proofs.«120956_j29738353557516_1_alg».proof.Proof.Gen.ReferenceIdeal
import proofs.«120956_j29738353557516_1_alg».proof.Proof.Gen.Pre_finite_inputs
import proofs.«120956_j29738353557516_1_alg».proof.Proof.KernelFrame
import proofs.«120956_j29738353557516_1_alg».proof.Proof.KernelIdealFrame
import proofs.«120956_j29738353557516_1_alg».proof.Proof.KernelIdealProduct
import proofs.«120956_j29738353557516_1_alg».proof.Proof.TailAgrees
import proofs.«120956_j29738353557516_1_alg».proof.Proof.RefRunP
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Region.frame (F := Bits) m ρ

theorem frame_kernelIdeal : Cert.frame_KernelIdeal := fun m ρ _ => Cert.KernelIdeal.Region.frame (F := Ideal) m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end, the kernel program's result at what the host lines compute from the region's result array — the
    product — and the arguments, the reference's at the same lines of its own contraction of equal arguments. -/
theorem algebraic : Cert.algebraic_KernelIdeal_ReferenceIdeal := by
  intro m ρ m' ρ' _ hagree
  refine ⟨fun c => Pipeline.afterTail₀ Cert.KernelIdeal.cfgs (Cert.KernelIdeal.Region.dats m) 0 (Cert.KernelIdeal.Region.V0 m)
      [Cert.KernelIdeal.Gen.hostOps1, Cert.KernelIdeal.Gen.hostOps1_1, Cert.KernelIdeal.Gen.hostOps1_2] c Cert.KernelIdeal.main_v75,
    Cert.KernelIdeal.Product.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6⟩ := hagree c
  refine (Cert.TailAgrees.tail_agrees m m' (Cert.KernelIdeal.Region.dats m) c a0 a2 a4 a5 a6 ?_).symm
  refine (Cert.KernelIdeal.Product.final m c).trans ?_
  rw [a1, a3]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
